-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S100000x40 : Shape := ⟨2, ![100000, 40]⟩
abbrev S10000x40 : Shape := ⟨2, ![10000, 40]⟩
abbrev S1600000x40 : Shape := ⟨2, ![1600000, 40]⟩
abbrev S1x40 : Shape := ⟨2, ![1, 40]⟩

abbrev nBuf : Space → Nat
  | .hbm => 93
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x40, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x40, .f32⟩
  | .hbm, ⟨87, _⟩ => ⟨S_, .f32⟩
  | .hbm, ⟨88, _⟩ => ⟨S100000x40, .f32⟩
  | .hbm, ⟨89, _⟩ => ⟨S1600000x1, .i32⟩
  | .hbm, ⟨90, _⟩ => ⟨S100000x40, .f32⟩
  | .hbm, ⟨91, _⟩ => ⟨S1x40, .f32⟩
  | .hbm, ⟨92, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x1, .f32⟩
  | .local _ .vmem, ⟨31, _⟩ => ⟨S10000x1, .f32⟩
  | .local _ .vmem, ⟨32, _⟩ => ⟨S128x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x1, .f32⟩
  | .local _ .vmem, ⟨38, _⟩ => ⟨S10000x1, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x1, .f32⟩
  | .local _ .vmem, ⟨45, _⟩ => ⟨S10000x1, .f32⟩
  | .local _ .vmem, ⟨46, _⟩ => ⟨S128x40, .f32⟩
  | .local _ .vmem, ⟨47, _⟩ => ⟨S10000x40, .f32⟩
  | .local _ .vmem, ⟨48, _⟩ => ⟨S10000x40, .f32⟩
  | .local _ .vmem, ⟨49, _⟩ => ⟨S10000x40, .f32⟩
  | .local _ .vmem, ⟨50, _⟩ => ⟨S10000x40, .f32⟩
  | .local _ .vmem, ⟨51, _⟩ => ⟨S10000x1, .f32⟩
  | .local _ .vmem, ⟨52, _⟩ => ⟨S10000x1, .f32⟩
  | .local _ .vmem, ⟨53, _⟩ => ⟨S1x40, .f32⟩
  | .local _ .vmem, ⟨54, _⟩ => ⟨S10000x40, .f32⟩
  | .local _ .vmem, ⟨55, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x40 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x40 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S10000x1_S10000x40 : S10000x1.Broadcasts S10000x40
  broadcasts_S1x40_S10000x40 : S1x40.Broadcasts S10000x40
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x40_S10000x40_1_0_0_1_n_n_wf : DotDims.WF S10000x128 S128x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .f32 = 32 ∨ (Rect.block (s := S100000x1) S10000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x40.size a ≤ S128x40.size a
  hwx6_2 : ∀ i : grid6.Coords, EltTy.bits .f32 = 32 ∨ (Rect.block (s := S128x40) S128x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x40.size a ≤ S100000x40.size a
  hwx6_3 : ∀ i : grid6.Coords, EltTy.bits .f32 = 32 ∨ (Rect.block (s := S100000x40) S10000x40.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x40.size a ≤ S100000x40.size a
  hwx7_0 : ∀ i : grid7.Coords, EltTy.bits .f32 = 32 ∨ (Rect.block (s := S100000x40) S10000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S100000x1.size a
  hwx7_1 : ∀ i : grid7.Coords, EltTy.bits .f32 = 32 ∨ (Rect.block (s := S100000x1) S10000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x40.size a ≤ S1x40.size a
  hwx7_2 : ∀ i : grid7.Coords, EltTy.bits .f32 = 32 ∨ (Rect.block (s := S1x40) S1x40.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x40.size a ≤ S100000x40.size a
  hwx7_3 : ∀ i : grid7.Coords, EltTy.bits .f32 = 32 ∨ (Rect.block (s := S100000x40) S10000x40.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v53) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v10) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S128x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v54) S10000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v64) S10000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v65) S1x40.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v66) S10000x40.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S100000x40, .f32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S1600000x40, .f32⟩
  | .hbm, ⟨113, _⟩ => ⟨S_, .f32⟩
  | .hbm, ⟨114, _⟩ => ⟨S100000x40, .f32⟩
  | .hbm, ⟨115, _⟩ => ⟨S1600000x1, .i32⟩
  | .hbm, ⟨116, _⟩ => ⟨S100000x40, .f32⟩
  | .hbm, ⟨117, _⟩ => ⟨S100000x40, .f32⟩
  | .hbm, ⟨118, _⟩ => ⟨S100000x40, .f32⟩
  | .hbm, ⟨119, _⟩ => ⟨S1x40, .f32⟩
  | .hbm, ⟨120, _⟩ => ⟨S100000x40, .f32⟩
  | .hbm, ⟨121, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_cst : Ref sig .tc := ⟨.hbm, 98, rfl⟩
abbrev main_call2_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_c_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its two results named.

  The program is thirteen segments — five stretches of host operations and eight kernel launches — and the contents of
  every buffer at each segment boundary are a fold from the launch memory (`W0` … `W13`). Every weakly fair execution
  terminates with every unscoped buffer at the last boundary's contents; read at the two result buffers and at the nine
  arguments, that is the run this certificate compares with the reference's: each result is `W13` at its buffer, each
  argument is as launched.
-/
import proofs.«123142_j11003706212774_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two results at the last
    boundary's contents and the arguments as launched. -/
theorem run : θ_run defs (onTc (τ := τ) (main (F := F))) ⟨m, fun _ => 0, ρ⟩ (fun r => ∀ c : Dev nD,
      r.2.mem ((c.tc : Thread nD τ).loc main_v66) = W13 m ρ c (Proc.devRef .tc main_v66)
      ∧ r.2.mem ((c.tc : Thread nD τ).loc main_v53) = W13 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v66 (by decide)),
       h c _ (mem_uc main_v53 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.Gcn.KernelRun

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«123142_j11003706212774_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Spec.lean ====
/-
  The graph network both programs compute, written once as whole-array functions on the extended reals.

  A layer scales every node's feature row by the node's out-degree norm and multiplies by the weight matrix
  (`scaleDot`), sums over the edges into each edge's destination the row of the edge's source (`aggregate`), and
  scales by the in-degree norm and adds the bias row (`scaleBias`); all layers but the last end in `max (·, 0)`
  (`relu`). Each function is read at an index: the product as the sum over the contracted axis, the rest entry by
  entry. The edge sum is the same host operation in both programs and is never opened.
-/
import proofs.«123142_j11003706212774_1_alg».proof.Proof.Gen.ReferenceIdeal
import proofs.«123142_j11003706212774_1_alg».proof.Proof.LibPlainDot
import proofs.«123142_j11003706212774_1_alg».proof.Proof.LibHostDot
import proofs.«123142_j11003706212774_1_alg».proof.Proof.LibColumn
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx Cert.ReferenceIdeal
open Cert.ReferenceIdeal.Facts₀ Cert.ReferenceIdeal.Facts

/-! ## The degree norms -/

/-- One over the square root of each node's degree, the degree at least one, as a column: the degree of node `n` is
    the number of edges whose endpoint in `idx` is `n` (a sum of ones scattered to the endpoints). -/
def degNorm (idx : IVec S1600000 32) : FVec Ideal S100000x1 .f32 :=
  broadcastInDim S100000x1 ![0] bcast_S100000_S100000x1_0
    (Host.rsqrt (F := Ideal) (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32))))

/-! ## The edge sum -/

/-- An edge endpoint below zero counts from the end: `100000` is added to it. -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- Row `n` of the result is the sum, over the edges whose destination is `n`, of the source node's row of `h`. -/
def aggregate (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0 (wrapIdx src)))

/-- The same over rows of 40 entries. -/
def aggregate40 (h : FVec Ideal S100000x40 .f32) (src dst : IVec S1600000 32) : FVec Ideal S100000x40 .f32 :=
  Host.scatterAdd (F := Ideal) scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (Host.gather gather_S100000x40_S1600000x1_S1600000x40_1_0_n_n_0_1_140 h
      (broadcastInDim S1600000x1 ![0] bcast_S1600000_S1600000x1_0 (wrapIdx src)))

/-! ## Scale by a column, then multiply by the weights -/

/-- `(x · nrm) W`: every row of `x` scaled by its node's entry of the column `nrm`, times the weight matrix. -/
def scaleDot (x : FVec Ideal S100000x128 .f32) (nrm : FVec Ideal S100000x1 .f32) (W : FVec Ideal S128x128 .f32) :
    FVec Ideal S100000x128 .f32 :=
  Host.dotGeneral (F := Ideal) dot_S100000x128_S128x128_S100000x128_1_0_0_1_n_n none
    (mulf x (broadcastInDim S100000x128 ![0, 1] bcast_S100000x1_S100000x128_0_1 nrm)) W

/-- The same into 40 columns. -/
def scaleDot40 (x : FVec Ideal S100000x128 .f32) (nrm : FVec Ideal S100000x1 .f32) (W : FVec Ideal S128x40 .f32) :
    FVec Ideal S100000x40 .f32 :=
  Host.dotGeneral (F := Ideal) dot_S100000x128_S128x40_S100000x40_1_0_0_1_n_n none
    (mulf x (broadcastInDim S100000x128 ![0, 1] bcast_S100000x1_S100000x128_0_1 nrm)) W

theorem dot128_eq : dot_S100000x128_S128x128_S100000x128_1_0_0_1_n_n
    = Cert.LibPlainDot.plainDot 100000 128 128 dot_S100000x128_S128x128_S100000x128_1_0_0_1_n_n_wf := rfl

theorem dot40_eq : dot_S100000x128_S128x40_S100000x40_1_0_0_1_n_n
    = Cert.LibPlainDot.plainDot 100000 128 40 dot_S100000x128_S128x40_S100000x40_1_0_0_1_n_n_wf := rfl

/-- Entry `(p, q)` of `(x · nrm) W` is the sum over `k` of `(x (p, k) · nrm p) · W (k, q)`. -/
theorem scaleDot_apply (x : FVec Ideal S100000x128 .f32) (nrm : FVec Ideal S100000x1 .f32) (W : FVec Ideal S128x128 .f32)
    (p : Fin 100000) (q : Fin 128) :
    scaleDot x nrm W (ix2 p q) = ∑ k : Fin 128, (x (ix2 p k) * nrm (ix2 p (0 : Fin 1))) * W (ix2 k q) := by
  unfold scaleDot
  rw [dot128_eq, Cert.LibHostDot.hostDot_apply]
  refine Finset.sum_congr rfl fun k _ => ?_
  rw [mulf_apply, Cert.LibColumn.bcastInDim_a1_ab_apply]

theorem scaleDot40_apply (x : FVec Ideal S100000x128 .f32) (nrm : FVec Ideal S100000x1 .f32) (W : FVec Ideal S128x40 .f32)
    (p : Fin 100000) (q : Fin 40) :
    scaleDot40 x nrm W (ix2 p q) = ∑ k : Fin 128, (x (ix2 p k) * nrm (ix2 p (0 : Fin 1))) * W (ix2 k q) := by
  unfold scaleDot40
  rw [dot40_eq, Cert.LibHostDot.hostDot_apply]
  refine Finset.sum_congr rfl fun k _ => ?_
  rw [mulf_apply, Cert.LibColumn.bcastInDim_a1_ab_apply]

/-! ## Scale by a column and add a row -/

/-- `a · nrm + b`: every row of `a` scaled by its node's entry of the column `nrm`, plus the row `b`. -/
def scaleBias (a : FVec Ideal S100000x128 .f32) (nrm : FVec Ideal S100000x1 .f32) (brow : FVec Ideal S1x128 .f32) :
    FVec Ideal S100000x128 .f32 :=
  addf (mulf a (broadcastInDim S100000x128 ![0, 1] bcast_S100000x1_S100000x128_0_1 nrm))
    (broadcastInDim S100000x128 ![0, 1] bcast_S1x128_S100000x128_0_1 brow)

def scaleBias40 (a : FVec Ideal S100000x40 .f32) (nrm : FVec Ideal S100000x1 .f32) (brow : FVec Ideal S1x40 .f32) :
    FVec Ideal S100000x40 .f32 :=
  addf (mulf a (broadcastInDim S100000x40 ![0, 1] bcast_S100000x1_S100000x40_0_1 nrm))
    (broadcastInDim S100000x40 ![0, 1] bcast_S1x40_S100000x40_0_1 brow)

theorem scaleBias_apply (a : FVec Ideal S100000x128 .f32) (nrm : FVec Ideal S100000x1 .f32) (brow : FVec Ideal S1x128 .f32)
    (p : Fin 100000) (q : Fin 128) :
    scaleBias a nrm brow (ix2 p q) = a (ix2 p q) * nrm (ix2 p (0 : Fin 1)) + brow (ix2 (0 : Fin 1) q) := by
  unfold scaleBias
  rw [addf_apply, mulf_apply, Cert.LibColumn.bcastInDim_a1_ab_apply, Cert.LibColumn.bcastInDim_1b_ab_apply]

theorem scaleBias40_apply (a : FVec Ideal S100000x40 .f32) (nrm : FVec Ideal S100000x1 .f32) (brow : FVec Ideal S1x40 .f32)
    (p : Fin 100000) (q : Fin 40) :
    scaleBias40 a nrm brow (ix2 p q) = a (ix2 p q) * nrm (ix2 p (0 : Fin 1)) + brow (ix2 (0 : Fin 1) q) := by
  unfold scaleBias40
  rw [addf_apply, mulf_apply, Cert.LibColumn.bcastInDim_a1_ab_apply, Cert.LibColumn.bcastInDim_1b_ab_apply]

/-- The larger of each entry and zero. -/
def relu (h : FVec Ideal S100000x128 .f32) : FVec Ideal S100000x128 .f32 :=
  maximumf h (broadcastInDim S100000x128 ![] bcast_S_S100000x128 (constant (F := Ideal) S_ .f32 0x00000000#32))

theorem relu_apply (h : FVec Ideal S100000x128 .f32) (j : S100000x128.Idx) :
    relu h j = max (h j) (Ideal.ofBits .f32 0x00000000#32) := by
  unfold relu
  rw [maximumf_apply, Cert.LibColumn.bcastInDim_scalar_apply _ _ j ix0, constant_apply]

/-- A bias vector as a row. -/
def biasRow (b : FVec Ideal S128 .f32) : FVec Ideal S1x128 .f32 := broadcastInDim S1x128 ![1] bcast_S128_S1x128_1 b

def biasRow40 (b : FVec Ideal S40 .f32) : FVec Ideal S1x40 .f32 := broadcastInDim S1x40 ![1] bcast_S40_S1x40_1 b

theorem biasRow_apply (b : FVec Ideal S128 .f32) (u : Fin 1) (c : Fin 128) : biasRow b (ix2 u c) = b (ix1 c) :=
  Cert.LibColumn.bcastInDim_b_1b_apply b _ u c

theorem biasRow40_apply (b : FVec Ideal S40 .f32) (u : Fin 1) (c : Fin 40) : biasRow40 b (ix2 u c) = b (ix1 c) :=
  Cert.LibColumn.bcastInDim_b_1b_apply b _ u c

/-! ## The network -/

/-- One hidden layer: scale and multiply, sum over the edges, scale and add the bias, keep what is positive. -/
def layer (x : FVec Ideal S100000x128 .f32) (W : FVec Ideal S128x128 .f32) (b : FVec Ideal S128 .f32)
    (src dst : IVec S1600000 32) : FVec Ideal S100000x128 .f32 :=
  relu (scaleBias (aggregate (scaleDot x (degNorm src) W) src dst) (degNorm dst) (biasRow b))

/-- The hidden state after the three hidden layers (the second result). -/
def hidden (x : FVec Ideal S100000x128 .f32) (src dst : IVec S1600000 32) (W1 : FVec Ideal S128x128 .f32)
    (b1 : FVec Ideal S128 .f32) (W2 : FVec Ideal S128x128 .f32) (b2 : FVec Ideal S128 .f32) : FVec Ideal S100000x128 .f32 :=
  layer (layer (layer x W1 b1 src dst) W2 b2 src dst) W2 b2 src dst

/-- The output layer over a hidden state: no `max` at the end (the first result, of `hidden`). -/
def output (h : FVec Ideal S100000x128 .f32) (src dst : IVec S1600000 32) (W3 : FVec Ideal S128x40 .f32)
    (b3 : FVec Ideal S40 .f32) : FVec Ideal S100000x40 .f32 :=
  scaleBias40 (aggregate40 (scaleDot40 h (degNorm src) W3) src dst) (degNorm dst) (biasRow40 b3)

end Cert.Gcn

end
-- ==== Proof.FlowKeep.lean ====
/-
  Reading a buffer back through the program's segments.

  The contents of every buffer at the thirteen segment boundaries are a fold from the launch memory. A kernel launch
  changes only its result array, and a stretch of host operations only the buffers its operations write; so the
  arguments read as launched at every boundary, and the two degree-norm columns — computed once, by the first stretch —
  read the same at every later one.
-/
import proofs.«123142_j11003706212774_1_alg».proof.Proof.Gen.KernelIdeal.Frame
import proofs.«123142_j11003706212774_1_alg».proof.Proof.Spec
import Idealize.ShloMosaic.Lib.StableHlo.Run
import Idealize.ShloMosaic.PureOps.Ideal

set_option maxRecDepth 16384

noncomputable section

namespace Cert.Gcn.Keep

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A stretch of host operations leaves a buffer none of them writes as it was. -/
local macro "host_keeps" : tactic => `(tactic|
  exact StableHlo.after_of_forall_not_mem _ _ (List.forall_iff_forall_mem.mp (by
    simp only [hostOps0, hostOps1, hostOps3, hostOps5, hostOps7, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-- At boundary 1 the argument `main_arg0` is as launched: no segment before it writes it. -/
theorem at1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps
    _ = m ((c : Thread nD τ).loc main_arg0) := rfl

/-- At boundary 1 the argument `main_arg3` is as launched: no segment before it writes it. -/
theorem at1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps
    _ = m ((c : Thread nD τ).loc main_arg3) := rfl

/-- At boundary 2 the argument `main_arg1` is as launched: no segment before it writes it. -/
theorem at2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by host_keeps
    _ = m ((c : Thread nD τ).loc main_arg1) := rfl

/-- At boundary 2 the argument `main_arg2` is as launched: no segment before it writes it. -/
theorem at2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_keeps
    _ = m ((c : Thread nD τ).loc main_arg2) := rfl

/-- At boundary 2 the argument `main_arg4` is as launched: no segment before it writes it. -/
theorem at2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_keeps
    _ = m ((c : Thread nD τ).loc main_arg4) := rfl

/-- At boundary 3 the buffer `main_v14` is as at boundary 1: no segment between writes it. -/
theorem at3_v14 (c : Dev nD) : W3 m ρ c (Proc.devRef .tc main_v14) = W1 m ρ c (Proc.devRef .tc main_v14) :=
  calc W3 m ρ c (Proc.devRef .tc main_v14)
    _ = W2 m ρ c (Proc.devRef .tc main_v14) := by host_keeps
    _ = W1 m ρ c (Proc.devRef .tc main_v14) := W2_of_ne m ρ c main_v14 (by decide)

/-- At boundary 4 the buffer `main_v10` is as at boundary 1: no segment between writes it. -/
theorem at4_v10 (c : Dev nD) : W4 m ρ c (Proc.devRef .tc main_v10) = W1 m ρ c (Proc.devRef .tc main_v10) :=
  calc W4 m ρ c (Proc.devRef .tc main_v10)
    _ = W3 m ρ c (Proc.devRef .tc main_v10) := W4_of_ne m ρ c main_v10 (by decide)
    _ = W2 m ρ c (Proc.devRef .tc main_v10) := by host_keeps
    _ = W1 m ρ c (Proc.devRef .tc main_v10) := (W2_arr m ρ c 1).trans (((dat0 (V1 m ρ) c).arrAt_in 1 rfl _).trans (A_eq0 (V1 m ρ) c 1))

/-- At boundary 4 the argument `main_arg5` is as launched: no segment before it writes it. -/
theorem at4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps
    _ = m ((c : Thread nD τ).loc main_arg5) := rfl

/-- At boundary 5 the argument `main_arg1` is as launched: no segment before it writes it. -/
theorem at5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := by host_keeps
    _ = W1 m ρ c (Proc.devRef .tc main_arg1) := W2_of_ne m ρ c main_arg1 (by decide)
    _ = W0 m ρ c (Proc.devRef .tc main_arg1) := by host_keeps
    _ = m ((c : Thread nD τ).loc main_arg1) := rfl

/-- At boundary 5 the argument `main_arg2` is as launched: no segment before it writes it. -/
theorem at5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := by host_keeps
    _ = W1 m ρ c (Proc.devRef .tc main_arg2) := W2_of_ne m ρ c main_arg2 (by decide)
    _ = W0 m ρ c (Proc.devRef .tc main_arg2) := by host_keeps
    _ = m ((c : Thread nD τ).loc main_arg2) := rfl

/-- At boundary 5 the argument `main_arg6` is as launched: no segment before it writes it. -/
theorem at5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_keeps
    _ = W1 m ρ c (Proc.devRef .tc main_arg6) := W2_of_ne m ρ c main_arg6 (by decide)
    _ = W0 m ρ c (Proc.devRef .tc main_arg6) := by host_keeps
    _ = m ((c : Thread nD τ).loc main_arg6) := rfl

/-- At boundary 6 the buffer `main_v14` is as at boundary 1: no segment between writes it. -/
theorem at6_v14 (c : Dev nD) : W6 m ρ c (Proc.devRef .tc main_v14) = W1 m ρ c (Proc.devRef .tc main_v14) :=
  calc W6 m ρ c (Proc.devRef .tc main_v14)
    _ = W5 m ρ c (Proc.devRef .tc main_v14) := by host_keeps
    _ = W4 m ρ c (Proc.devRef .tc main_v14) := W5_of_ne m ρ c main_v14 (by decide)
    _ = W3 m ρ c (Proc.devRef .tc main_v14) := (W4_arr m ρ c 1).trans (((dat1 (V3 m ρ) c).arrAt_in 1 rfl _).trans (A_eq1 (V3 m ρ) c 1))
    _ = W2 m ρ c (Proc.devRef .tc main_v14) := by host_keeps
    _ = W1 m ρ c (Proc.devRef .tc main_v14) := W2_of_ne m ρ c main_v14 (by decide)

/-- At boundary 7 the buffer `main_v10` is as at boundary 1: no segment between writes it. -/
theorem at7_v10 (c : Dev nD) : W7 m ρ c (Proc.devRef .tc main_v10) = W1 m ρ c (Proc.devRef .tc main_v10) :=
  calc W7 m ρ c (Proc.devRef .tc main_v10)
    _ = W6 m ρ c (Proc.devRef .tc main_v10) := W7_of_ne m ρ c main_v10 (by decide)
    _ = W5 m ρ c (Proc.devRef .tc main_v10) := by host_keeps
    _ = W4 m ρ c (Proc.devRef .tc main_v10) := (W5_arr m ρ c 1).trans (((dat2 (V4 m ρ) c).arrAt_in 1 rfl _).trans (A_eq2 (V4 m ρ) c 1))
    _ = W3 m ρ c (Proc.devRef .tc main_v10) := W4_of_ne m ρ c main_v10 (by decide)
    _ = W2 m ρ c (Proc.devRef .tc main_v10) := by host_keeps
    _ = W1 m ρ c (Proc.devRef .tc main_v10) := (W2_arr m ρ c 1).trans (((dat0 (V1 m ρ) c).arrAt_in 1 rfl _).trans (A_eq0 (V1 m ρ) c 1))

/-- At boundary 7 the argument `main_arg5` is as launched: no segment before it writes it. -/
theorem at7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := by host_keeps
    _ = W4 m ρ c (Proc.devRef .tc main_arg5) := (W5_arr m ρ c 2).trans (((dat2 (V4 m ρ) c).arrAt_in 2 rfl _).trans (A_eq2 (V4 m ρ) c 2))
    _ = W3 m ρ c (Proc.devRef .tc main_arg5) := W4_of_ne m ρ c main_arg5 (by decide)
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps
    _ = m ((c : Thread nD τ).loc main_arg5) := rfl

/-- At boundary 8 the argument `main_arg1` is as launched: no segment before it writes it. -/
theorem at8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := by host_keeps
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := by host_keeps
    _ = W1 m ρ c (Proc.devRef .tc main_arg1) := W2_of_ne m ρ c main_arg1 (by decide)
    _ = W0 m ρ c (Proc.devRef .tc main_arg1) := by host_keeps
    _ = m ((c : Thread nD τ).loc main_arg1) := rfl

/-- At boundary 8 the argument `main_arg2` is as launched: no segment before it writes it. -/
theorem at8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := by host_keeps
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := by host_keeps
    _ = W1 m ρ c (Proc.devRef .tc main_arg2) := W2_of_ne m ρ c main_arg2 (by decide)
    _ = W0 m ρ c (Proc.devRef .tc main_arg2) := by host_keeps
    _ = m ((c : Thread nD τ).loc main_arg2) := rfl

/-- At boundary 8 the argument `main_arg6` is as launched: no segment before it writes it. -/
theorem at8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := by host_keeps
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_keeps
    _ = W1 m ρ c (Proc.devRef .tc main_arg6) := W2_of_ne m ρ c main_arg6 (by decide)
    _ = W0 m ρ c (Proc.devRef .tc main_arg6) := by host_keeps
    _ = m ((c : Thread nD τ).loc main_arg6) := rfl

/-- At boundary 9 the buffer `main_v14` is as at boundary 1: no segment between writes it. -/
theorem at9_v14 (c : Dev nD) : W9 m ρ c (Proc.devRef .tc main_v14) = W1 m ρ c (Proc.devRef .tc main_v14) :=
  calc W9 m ρ c (Proc.devRef .tc main_v14)
    _ = W8 m ρ c (Proc.devRef .tc main_v14) := by host_keeps
    _ = W7 m ρ c (Proc.devRef .tc main_v14) := W8_of_ne m ρ c main_v14 (by decide)
    _ = W6 m ρ c (Proc.devRef .tc main_v14) := (W7_arr m ρ c 1).trans (((dat3 (V6 m ρ) c).arrAt_in 1 rfl _).trans (A_eq3 (V6 m ρ) c 1))
    _ = W5 m ρ c (Proc.devRef .tc main_v14) := by host_keeps
    _ = W4 m ρ c (Proc.devRef .tc main_v14) := W5_of_ne m ρ c main_v14 (by decide)
    _ = W3 m ρ c (Proc.devRef .tc main_v14) := (W4_arr m ρ c 1).trans (((dat1 (V3 m ρ) c).arrAt_in 1 rfl _).trans (A_eq1 (V3 m ρ) c 1))
    _ = W2 m ρ c (Proc.devRef .tc main_v14) := by host_keeps
    _ = W1 m ρ c (Proc.devRef .tc main_v14) := W2_of_ne m ρ c main_v14 (by decide)

/-- At boundary 10 the buffer `main_v10` is as at boundary 1: no segment between writes it. -/
theorem at10_v10 (c : Dev nD) : W10 m ρ c (Proc.devRef .tc main_v10) = W1 m ρ c (Proc.devRef .tc main_v10) :=
  calc W10 m ρ c (Proc.devRef .tc main_v10)
    _ = W9 m ρ c (Proc.devRef .tc main_v10) := W10_of_ne m ρ c main_v10 (by decide)
    _ = W8 m ρ c (Proc.devRef .tc main_v10) := by host_keeps
    _ = W7 m ρ c (Proc.devRef .tc main_v10) := (W8_arr m ρ c 1).trans (((dat4 (V7 m ρ) c).arrAt_in 1 rfl _).trans (A_eq4 (V7 m ρ) c 1))
    _ = W6 m ρ c (Proc.devRef .tc main_v10) := W7_of_ne m ρ c main_v10 (by decide)
    _ = W5 m ρ c (Proc.devRef .tc main_v10) := by host_keeps
    _ = W4 m ρ c (Proc.devRef .tc main_v10) := (W5_arr m ρ c 1).trans (((dat2 (V4 m ρ) c).arrAt_in 1 rfl _).trans (A_eq2 (V4 m ρ) c 1))
    _ = W3 m ρ c (Proc.devRef .tc main_v10) := W4_of_ne m ρ c main_v10 (by decide)
    _ = W2 m ρ c (Proc.devRef .tc main_v10) := by host_keeps
    _ = W1 m ρ c (Proc.devRef .tc main_v10) := (W2_arr m ρ c 1).trans (((dat0 (V1 m ρ) c).arrAt_in 1 rfl _).trans (A_eq0 (V1 m ρ) c 1))

/-- At boundary 10 the argument `main_arg7` is as launched: no segment before it writes it. -/
theorem at10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_keeps
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by host_keeps
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_keeps
    _ = W1 m ρ c (Proc.devRef .tc main_arg7) := W2_of_ne m ρ c main_arg7 (by decide)
    _ = W0 m ρ c (Proc.devRef .tc main_arg7) := by host_keeps
    _ = m ((c : Thread nD τ).loc main_arg7) := rfl

/-- At boundary 11 the argument `main_arg1` is as launched: no segment before it writes it. -/
theorem at11_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := by host_keeps
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := by host_keeps
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := by host_keeps
    _ = W1 m ρ c (Proc.devRef .tc main_arg1) := W2_of_ne m ρ c main_arg1 (by decide)
    _ = W0 m ρ c (Proc.devRef .tc main_arg1) := by host_keeps
    _ = m ((c : Thread nD τ).loc main_arg1) := rfl

/-- At boundary 11 the argument `main_arg2` is as launched: no segment before it writes it. -/
theorem at11_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := by host_keeps
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := by host_keeps
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := by host_keeps
    _ = W1 m ρ c (Proc.devRef .tc main_arg2) := W2_of_ne m ρ c main_arg2 (by decide)
    _ = W0 m ρ c (Proc.devRef .tc main_arg2) := by host_keeps
    _ = m ((c : Thread nD τ).loc main_arg2) := rfl

/-- At boundary 11 the argument `main_arg8` is as launched: no segment before it writes it. -/
theorem at11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := W10_of_ne m ρ c main_arg8 (by decide)
    _ = W8 m ρ c (Proc.devRef .tc main_arg8) := by host_keeps
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := by host_keeps
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_keeps
    _ = W1 m ρ c (Proc.devRef .tc main_arg8) := W2_of_ne m ρ c main_arg8 (by decide)
    _ = W0 m ρ c (Proc.devRef .tc main_arg8) := by host_keeps
    _ = m ((c : Thread nD τ).loc main_arg8) := rfl

/-- At boundary 12 the buffer `main_v14` is as at boundary 1: no segment between writes it. -/
theorem at12_v14 (c : Dev nD) : W12 m ρ c (Proc.devRef .tc main_v14) = W1 m ρ c (Proc.devRef .tc main_v14) :=
  calc W12 m ρ c (Proc.devRef .tc main_v14)
    _ = W11 m ρ c (Proc.devRef .tc main_v14) := by host_keeps
    _ = W10 m ρ c (Proc.devRef .tc main_v14) := W11_of_ne m ρ c main_v14 (by decide)
    _ = W9 m ρ c (Proc.devRef .tc main_v14) := (W10_arr m ρ c 1).trans (((dat5 (V9 m ρ) c).arrAt_in 1 rfl _).trans (A_eq5 (V9 m ρ) c 1))
    _ = W8 m ρ c (Proc.devRef .tc main_v14) := by host_keeps
    _ = W7 m ρ c (Proc.devRef .tc main_v14) := W8_of_ne m ρ c main_v14 (by decide)
    _ = W6 m ρ c (Proc.devRef .tc main_v14) := (W7_arr m ρ c 1).trans (((dat3 (V6 m ρ) c).arrAt_in 1 rfl _).trans (A_eq3 (V6 m ρ) c 1))
    _ = W5 m ρ c (Proc.devRef .tc main_v14) := by host_keeps
    _ = W4 m ρ c (Proc.devRef .tc main_v14) := W5_of_ne m ρ c main_v14 (by decide)
    _ = W3 m ρ c (Proc.devRef .tc main_v14) := (W4_arr m ρ c 1).trans (((dat1 (V3 m ρ) c).arrAt_in 1 rfl _).trans (A_eq1 (V3 m ρ) c 1))
    _ = W2 m ρ c (Proc.devRef .tc main_v14) := by host_keeps
    _ = W1 m ρ c (Proc.devRef .tc main_v14) := W2_of_ne m ρ c main_v14 (by decide)

/-- At boundary 13 the buffer `main_v53` is as at boundary 10: no segment between writes it. -/
theorem at13_v53 (c : Dev nD) : W13 m ρ c (Proc.devRef .tc main_v53) = W10 m ρ c (Proc.devRef .tc main_v53) :=
  calc W13 m ρ c (Proc.devRef .tc main_v53)
    _ = W12 m ρ c (Proc.devRef .tc main_v53) := W13_of_ne m ρ c main_v53 (by decide)
    _ = W11 m ρ c (Proc.devRef .tc main_v53) := by host_keeps
    _ = W10 m ρ c (Proc.devRef .tc main_v53) := (W11_arr m ρ c 0).trans (((dat6 (V10 m ρ) c).arrAt_in 0 rfl _).trans (A_eq6 (V10 m ρ) c 0))

/-- The out-degree norm column, computed by the first stretch from the edges' sources. -/
theorem w1_v10 (c : Dev nD) : W1 m ρ c (Proc.devRef .tc main_v10) = Cert.Gcn.degNorm (m ((c : Thread nD τ).loc main_arg1)) := by
  show StableHlo.after hostOps0 (W0 m ρ c) (Proc.devRef .tc main_v10) = _
  after_results
  rfl

/-- The in-degree norm column, computed by the first stretch from the edges' destinations. -/
theorem w1_v14 (c : Dev nD) : W1 m ρ c (Proc.devRef .tc main_v14) = Cert.Gcn.degNorm (m ((c : Thread nD τ).loc main_arg2)) := by
  show StableHlo.after hostOps0 (W0 m ρ c) (Proc.devRef .tc main_v14) = _
  after_results
  rfl

end Cert.Gcn.Keep

end
-- ==== Proof.BiasRow.lean ====
/-
  A bias vector laid out as a row: by a cast or by a broadcast along its one axis, the same row.

  A vector of `b` entries cast to a `1 × b` array and the same vector broadcast to `1 × b` along axis 1 both read,
  at `(0, q)`, the vector's entry `q`.
-/
import proofs.«123142_j11003706212774_1_alg».proof.Proof.Spec
import Idealize.ShloMosaic.Lib.ValueLayout

noncomputable section

namespace Cert.Gcn

open Idealize.ShloMosaic Idealize.ShloMosaic.ValueIdx Cert.ReferenceIdeal

theorem shapeCast_row (b : FVec Ideal S128 .f32) (h : S128.ShapeCasts S1x128) : shapeCast S1x128 b h = biasRow b := by
  funext j
  obtain ⟨u, q, rfl⟩ : ∃ (u : Fin 1) (q : Fin 128), j = ix2 u q := ⟨j 0, j 1, eq_ix2 j⟩
  rw [shapeCast_a_1a_apply, biasRow_apply]

theorem shapeCast_row40 (b : FVec Ideal S40 .f32) (h : S40.ShapeCasts S1x40) : shapeCast S1x40 b h = biasRow40 b := by
  funext j
  obtain ⟨u, q, rfl⟩ : ∃ (u : Fin 1) (q : Fin 40), j = ix2 u q := ⟨j 0, j 1, eq_ix2 j⟩
  rw [shapeCast_a_1a_apply, biasRow40_apply]

end Cert.Gcn

end
-- ==== Proof.FlowHost.lean ====
/-
  What the four gather-and-scatter stretches leave.

  Each stretch between a scaling launch and a bias launch reads the array the scaling launch left, the edges' sources
  and destinations, and the layer's bias vector; it leaves the sum over the edges into each destination of the source's
  row, and the bias laid out as a row. Both are stated over the previous boundary's contents. The edge sum is the
  reference's own operation — the two programs' dimension records hold the same lists — and is not opened.
-/
import proofs.«123142_j11003706212774_1_alg».proof.Proof.FlowKeep
import proofs.«123142_j11003706212774_1_alg».proof.Proof.BiasRow

set_option maxRecDepth 16384

noncomputable section

namespace Cert.Gcn.Host

open Cert.KernelIdeal Cert.KernelIdeal.Gen
open Idealize.ShloMosaic Idealize.ShloMosaic.TcCoe Idealize.SL.Sem Idealize.ShloMosaic.StableHlo
open Idealize.ShloMosaic.Pipeline (Dat)
open Cert.Gcn.Keep

variable (m : (ℓ : Loc nD τ sig) → Buf (Elt Ideal) ℓ) (ρ : Dev nD → PrngReg)

/-! ## The edge sum as the kernel program spells it -/

theorem scat128 : Cert.KernelIdeal.scatter_S100000x128_S1600000x1_S1600000x128_1_0_0_1
    = Cert.ReferenceIdeal.scatter_S100000x128_S1600000x1_S1600000x128_1_0_0_1 := rfl
theorem gath128 : Cert.KernelIdeal.gather_S100000x128_S1600000x1_S1600000x128_1_0_n_n_0_1_1128
    = Cert.ReferenceIdeal.gather_S100000x128_S1600000x1_S1600000x128_1_0_n_n_0_1_1128 := rfl
theorem scat40 : Cert.KernelIdeal.scatter_S100000x40_S1600000x1_S1600000x40_1_0_0_1
    = Cert.ReferenceIdeal.scatter_S100000x40_S1600000x1_S1600000x40_1_0_0_1 := rfl
theorem gath40 : Cert.KernelIdeal.gather_S100000x40_S1600000x1_S1600000x40_1_0_n_n_0_1_140
    = Cert.ReferenceIdeal.gather_S100000x40_S1600000x1_S1600000x40_1_0_n_n_0_1_140 := rfl

section

set_option maxHeartbeats 4000000 in
/-- The sum over the edges into each destination of the source's row, with the kernel program's own dimension records. -/
def aggK (h : FVec Ideal S100000x128 .f32) (src dst : IVec S1600000 32) : FVec Ideal S100000x128 .f32 :=
  Host.scatterAdd (F := Ideal) scatter_S100000x128_S1600000x1_S1600000x128_1_0_0_1
    (broadcastInDim S100000x128 ![] Cert.KernelIdeal.Facts₀.bcast_S_S100000x128 (constant (F := Ideal) S_ .f32 0x00000000#32))
    (broadcastInDim S1600000x1 ![0] Cert.KernelIdeal.Facts₀.bcast_S1600000_S1600000x1_0 dst)
    (Host.gather gather_S100000x128_S1600000x1_S1600000x128_1_0_n_n_0_1_1128 h
      (broadcastInDim S1600000x1 ![0] Cert.KernelIdeal.Facts₀.bcast_S1600000_S1600000x1_0
        (select (cmpi .slt src (broadcastInDim S1600000 ![] Cert.KernelIdeal.Facts₀.bcast_S_S1600000 (constantI S_ 32 0#32)))
          (addi src (broadcastInDim S1600000 ![] Cert.KernelIdeal.Facts₀.bcast_S_S1600000 (constantI S_ 32 100000#32))) src)))

/-- The same over rows of 40 entries. -/
def aggK40 (h : FVec Ideal S100000x40 .f32) (src dst : IVec S1600000 32) : FVec Ideal S100000x40 .f32 :=
  Host.scatterAdd (F := Ideal) scatter_S100000x40_S1600000x1_S1600000x40_1_0_0_1
    (broadcastInDim S100000x40 ![] Cert.KernelIdeal.Facts₀.bcast_S_S100000x40 (constant (F := Ideal) S_ .f32 0x00000000#32))
    (broadcastInDim S1600000x1 ![0] Cert.KernelIdeal.Facts₀.bcast_S1600000_S1600000x1_0 dst)
    (Host.gather gather_S100000x40_S1600000x1_S1600000x40_1_0_n_n_0_1_140 h
      (broadcastInDim S1600000x1 ![0] Cert.KernelIdeal.Facts₀.bcast_S1600000_S1600000x1_0
        (select (cmpi .slt src (broadcastInDim S1600000 ![] Cert.KernelIdeal.Facts₀.bcast_S_S1600000 (constantI S_ 32 0#32)))
          (addi src (broadcastInDim S1600000 ![] Cert.KernelIdeal.Facts₀.bcast_S_S1600000 (constantI S_ 32 100000#32))) src)))
end

/-- The two programs' dimension records have the same lists, so the two spellings are one operation. -/
theorem aggK_eq (h : FVec Ideal S100000x128 .f32) (src dst : IVec S1600000 32) :
    aggK h src dst = Cert.Gcn.aggregate h src dst := by
  unfold aggK Cert.Gcn.aggregate Cert.Gcn.wrapIdx
  rw [scat128, gath128]

theorem aggK40_eq (h : FVec Ideal S100000x40 .f32) (src dst : IVec S1600000 32) :
    aggK40 h src dst = Cert.Gcn.aggregate40 h src dst := by
  unfold aggK40 Cert.Gcn.aggregate40 Cert.Gcn.wrapIdx
  rw [scat40, gath40]

/-! ## The four stretches -/

set_option maxHeartbeats 4000000 in
/-- After the stretch before boundary 3: the edge sum of the array the launch before it left. -/
theorem w3_v25 (c : Dev nD) :
    W3 m ρ c (Proc.devRef .tc main_v25) = Cert.Gcn.aggregate (W2 m ρ c (Proc.devRef .tc main_v15)) (m ((c : Thread nD τ).loc main_arg1)) (m ((c : Thread nD τ).loc main_arg2)) := by
  have key : W3 m ρ c (Proc.devRef .tc main_v25)
      = aggK (W2 m ρ c (Proc.devRef .tc main_v15)) (W2 m ρ c (Proc.devRef .tc main_arg1)) (W2 m ρ c (Proc.devRef .tc main_arg2)) := by
    generalize hX : aggK (W2 m ρ c (Proc.devRef .tc main_v15)) (W2 m ρ c (Proc.devRef .tc main_arg1)) (W2 m ρ c (Proc.devRef .tc main_arg2)) = X
    show StableHlo.after hostOps1 (W2 m ρ c) (Proc.devRef .tc main_v25) = X
    after_results
    exact hX
  rw [key, at2_arg1 m ρ c, at2_arg2 m ρ c, aggK_eq]

set_option maxHeartbeats 4000000 in
/-- After the same stretch: the layer's bias as a row. -/
theorem w3_v26 (c : Dev nD) :
    W3 m ρ c (Proc.devRef .tc main_v26) = Cert.Gcn.biasRow (m ((c : Thread nD τ).loc main_arg4)) := by
  show StableHlo.after hostOps1 (W2 m ρ c) (Proc.devRef .tc main_v26) = _
  after_results
  rw [at2_arg4 m ρ c]
  exact Cert.Gcn.shapeCast_row _ _

set_option maxHeartbeats 4000000 in
/-- After the stretch before boundary 6: the edge sum of the array the launch before it left. -/
theorem w6_v38 (c : Dev nD) :
    W6 m ρ c (Proc.devRef .tc main_v38) = Cert.Gcn.aggregate (W5 m ρ c (Proc.devRef .tc main_v28)) (m ((c : Thread nD τ).loc main_arg1)) (m ((c : Thread nD τ).loc main_arg2)) := by
  have key : W6 m ρ c (Proc.devRef .tc main_v38)
      = aggK (W5 m ρ c (Proc.devRef .tc main_v28)) (W5 m ρ c (Proc.devRef .tc main_arg1)) (W5 m ρ c (Proc.devRef .tc main_arg2)) := by
    generalize hX : aggK (W5 m ρ c (Proc.devRef .tc main_v28)) (W5 m ρ c (Proc.devRef .tc main_arg1)) (W5 m ρ c (Proc.devRef .tc main_arg2)) = X
    show StableHlo.after hostOps3 (W5 m ρ c) (Proc.devRef .tc main_v38) = X
    after_results
    exact hX
  rw [key, at5_arg1 m ρ c, at5_arg2 m ρ c, aggK_eq]

set_option maxHeartbeats 4000000 in
/-- After the same stretch: the layer's bias as a row. -/
theorem w6_v39 (c : Dev nD) :
    W6 m ρ c (Proc.devRef .tc main_v39) = Cert.Gcn.biasRow (m ((c : Thread nD τ).loc main_arg6)) := by
  show StableHlo.after hostOps3 (W5 m ρ c) (Proc.devRef .tc main_v39) = _
  after_results
  rw [at5_arg6 m ρ c]
  exact Cert.Gcn.shapeCast_row _ _

set_option maxHeartbeats 4000000 in
/-- After the stretch before boundary 9: the edge sum of the array the launch before it left. -/
theorem w9_v51 (c : Dev nD) :
    W9 m ρ c (Proc.devRef .tc main_v51) = Cert.Gcn.aggregate (W8 m ρ c (Proc.devRef .tc main_v41)) (m ((c : Thread nD τ).loc main_arg1)) (m ((c : Thread nD τ).loc main_arg2)) := by
  have key : W9 m ρ c (Proc.devRef .tc main_v51)
      = aggK (W8 m ρ c (Proc.devRef .tc main_v41)) (W8 m ρ c (Proc.devRef .tc main_arg1)) (W8 m ρ c (Proc.devRef .tc main_arg2)) := by
    generalize hX : aggK (W8 m ρ c (Proc.devRef .tc main_v41)) (W8 m ρ c (Proc.devRef .tc main_arg1)) (W8 m ρ c (Proc.devRef .tc main_arg2)) = X
    show StableHlo.after hostOps5 (W8 m ρ c) (Proc.devRef .tc main_v51) = X
    after_results
    exact hX
  rw [key, at8_arg1 m ρ c, at8_arg2 m ρ c, aggK_eq]

set_option maxHeartbeats 4000000 in
/-- After the same stretch: the layer's bias as a row. -/
theorem w9_v52 (c : Dev nD) :
    W9 m ρ c (Proc.devRef .tc main_v52) = Cert.Gcn.biasRow (m ((c : Thread nD τ).loc main_arg6)) := by
  show StableHlo.after hostOps5 (W8 m ρ c) (Proc.devRef .tc main_v52) = _
  after_results
  rw [at8_arg6 m ρ c]
  exact Cert.Gcn.shapeCast_row _ _

set_option maxHeartbeats 4000000 in
/-- After the stretch before boundary 12: the edge sum of the array the launch before it left. -/
theorem w12_v64 (c : Dev nD) :
    W12 m ρ c (Proc.devRef .tc main_v64) = Cert.Gcn.aggregate40 (W11 m ρ c (Proc.devRef .tc main_v54)) (m ((c : Thread nD τ).loc main_arg1)) (m ((c : Thread nD τ).loc main_arg2)) := by
  have key : W12 m ρ c (Proc.devRef .tc main_v64)
      = aggK40 (W11 m ρ c (Proc.devRef .tc main_v54)) (W11 m ρ c (Proc.devRef .tc main_arg1)) (W11 m ρ c (Proc.devRef .tc main_arg2)) := by
    generalize hX : aggK40 (W11 m ρ c (Proc.devRef .tc main_v54)) (W11 m ρ c (Proc.devRef .tc main_arg1)) (W11 m ρ c (Proc.devRef .tc main_arg2)) = X
    show StableHlo.after hostOps7 (W11 m ρ c) (Proc.devRef .tc main_v64) = X
    after_results
    exact hX
  rw [key, at11_arg1 m ρ c, at11_arg2 m ρ c, aggK40_eq]

/-- After the same stretch: the layer's bias as a row. -/
theorem w12_v65 (c : Dev nD) :
    W12 m ρ c (Proc.devRef .tc main_v65) = Cert.Gcn.biasRow40 (m ((c : Thread nD τ).loc main_arg8)) := by
  show StableHlo.after hostOps7 (W11 m ρ c) (Proc.devRef .tc main_v65) = _
  after_results
  rw [at11_arg8 m ρ c]
  exact Cert.Gcn.shapeCast_row40 _ _

end Cert.Gcn.Host

end
-- ==== Proof.Payload.lean ====
/-
  What each kernel body stores, read at an entry, on the extended reals.

  A scaling body loads a block of rows `x`, the rows' column of norms `n` and the whole weight matrix `W`, and
  stores the product of `x · n` with `W` (both narrowed, which changes nothing here) into a zero accumulator: entry
  `(p, q)` is the sum over `k` of `(x (p, k) · n p) · W (k, q)`. A bias body loads a block of rows `a`, the
  column `n` and the bias row `b`, and stores `a · n + b`, a hidden layer's body then the larger of that and
  zero. One lemma per region; the repeated layers' bodies are the same functions under other names.
-/
import proofs.«123142_j11003706212774_1_alg».proof.Proof.Gen.KernelIdeal.Skeleton
import proofs.«123142_j11003706212774_1_alg».proof.Proof.LibPlainDot
import proofs.«123142_j11003706212774_1_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Gcn.Body

open Idealize.ShloMosaic Idealize.ShloMosaic.ValueIdx Cert.KernelIdeal Cert.KernelIdeal.Gen

theorem kdot128_eq : dot_S10000x128_S128x128_S10000x128_1_0_0_1_n_n
    = Cert.LibPlainDot.plainDot 10000 128 128 Cert.KernelIdeal.Facts₀.dot_S10000x128_S128x128_S10000x128_1_0_0_1_n_n_wf := rfl

theorem kdot40_eq : dot_S10000x128_S128x40_S10000x40_1_0_0_1_n_n
    = Cert.LibPlainDot.plainDot 10000 128 40 Cert.KernelIdeal.Facts₀.dot_S10000x128_S128x40_S10000x40_1_0_0_1_n_n_wf := rfl

/-- Region 0's stored entry `(p, q)`: the sum over `k` of `(x (p, k) · n p) · W (k, q)`. -/
theorem pay0_apply (x0 : Vec Ideal S10000x128 .f32) (x1 : Vec Ideal S10000x1 .f32) (x2 : Vec Ideal S128x128 .f32)
    (p : Fin 10000) (q : Fin 128) :
    k0_pay1 (F := Ideal) x0 x1 x2 (ix2 p q)
      = ∑ k : Fin 128, (x0 (ix2 p k) * x1 (ix2 p (0 : Fin 1))) * x2 (ix2 k q) := by
  unfold k0_pay1
  show FloatOps.matmul dot_S10000x128_S128x128_S10000x128_1_0_0_1_n_n none
      (truncf (F := Ideal) (φ := .f32) .bf16 (mulf (F := Ideal) (φ := .f32) x0
        (broadcastTo S10000x128 (shapeCast (α := Ideal .f32) S10000x1 x1 _) _)) _)
      (truncf (F := Ideal) (φ := .f32) .bf16 x2 _) (constant (F := Ideal) S10000x128 .f32 0x00000000#32) (ix2 p q) = _
  rw [kdot128_eq, Cert.LibPlainDot.matmul_zero_apply]
  refine Finset.sum_congr rfl fun k _ => ?_
  rw [truncf_apply, truncf_apply, mulf_apply, Cert.LibColumn.broadcastTo_a1_ab_apply, shapeCast_self]

/-- Region 1's stored entry `(p, q)`: the larger of `a (p, q) · n p + b q` and zero. -/
theorem pay1_apply (x0 : Vec Ideal S10000x128 .f32) (x1 : Vec Ideal S10000x1 .f32) (x2 : Vec Ideal S1x128 .f32)
    (p : Fin 10000) (q : Fin 128) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  show maximumf (addf (mulf (shapeCast S10000x128 (x0 : FVec Ideal S10000x128 .f32) _)
        (broadcastTo S10000x128 (shapeCast S10000x1 (x1 : FVec Ideal S10000x1 .f32) _) _))
      (broadcastTo S10000x128 (shapeCast S1x128 (x2 : FVec Ideal S1x128 .f32) _) _))
      (broadcast S10000x128 (Scalar.ofBits (F := Ideal) .f32 0x00000000#32)) (ix2 p q) = _
  rw [maximumf_apply, addf_apply, mulf_apply, broadcast_apply, Cert.LibColumn.broadcastTo_a1_ab_apply,
    broadcastTo_1b_ab_apply, shapeCast_self, shapeCast_self, shapeCast_self]
  rfl

/-- Region 2's stored entry `(p, q)`: the sum over `k` of `(x (p, k) · n p) · W (k, q)`. -/
theorem pay2_apply (x0 : Vec Ideal S10000x128 .f32) (x1 : Vec Ideal S10000x1 .f32) (x2 : Vec Ideal S128x128 .f32)
    (p : Fin 10000) (q : Fin 128) :
    k2_pay1 (F := Ideal) x0 x1 x2 (ix2 p q)
      = ∑ k : Fin 128, (x0 (ix2 p k) * x1 (ix2 p (0 : Fin 1))) * x2 (ix2 k q) := by
  unfold k2_pay1
  show FloatOps.matmul dot_S10000x128_S128x128_S10000x128_1_0_0_1_n_n none
      (truncf (F := Ideal) (φ := .f32) .bf16 (mulf (F := Ideal) (φ := .f32) (shapeCast (α := Ideal .f32) S10000x128 x0 _)
        (broadcastTo S10000x128 (shapeCast (α := Ideal .f32) S10000x1 x1 _) _)) _)
      (truncf (F := Ideal) (φ := .f32) .bf16 x2 _) (constant (F := Ideal) S10000x128 .f32 0x00000000#32) (ix2 p q) = _
  rw [kdot128_eq, Cert.LibPlainDot.matmul_zero_apply]
  refine Finset.sum_congr rfl fun k _ => ?_
  rw [truncf_apply, truncf_apply, mulf_apply, Cert.LibColumn.broadcastTo_a1_ab_apply, shapeCast_self, shapeCast_self]

/-- Region 3's stored entry `(p, q)`: the larger of `a (p, q) · n p + b q` and zero. -/
theorem pay3_apply (x0 : Vec Ideal S10000x128 .f32) (x1 : Vec Ideal S10000x1 .f32) (x2 : Vec Ideal S1x128 .f32)
    (p : Fin 10000) (q : Fin 128) :
    k3_pay1 (F := Ideal) x0 x1 x2 (ix2 p q)
      = max (x0 (ix2 p q) * x1 (ix2 p (0 : Fin 1)) + x2 (ix2 (0 : Fin 1) q)) (Ideal.ofBits .f32 0x00000000#32) := by
  unfold k3_pay1
  show maximumf (addf (mulf (shapeCast S10000x128 (x0 : FVec Ideal S10000x128 .f32) _)
        (broadcastTo S10000x128 (shapeCast S10000x1 (x1 : FVec Ideal S10000x1 .f32) _) _))
      (broadcastTo S10000x128 (shapeCast S1x128 (x2 : FVec Ideal S1x128 .f32) _) _))
      (broadcast S10000x128 (Scalar.ofBits (F := Ideal) .f32 0x00000000#32)) (ix2 p q) = _
  rw [maximumf_apply, addf_apply, mulf_apply, broadcast_apply, Cert.LibColumn.broadcastTo_a1_ab_apply,
    broadcastTo_1b_ab_apply, shapeCast_self, shapeCast_self, shapeCast_self]
  rfl

/-- Region 4's stored entry `(p, q)`: the sum over `k` of `(x (p, k) · n p) · W (k, q)`. -/
theorem pay4_apply (x0 : Vec Ideal S10000x128 .f32) (x1 : Vec Ideal S10000x1 .f32) (x2 : Vec Ideal S128x128 .f32)
    (p : Fin 10000) (q : Fin 128) :
    k4_pay1 (F := Ideal) x0 x1 x2 (ix2 p q)
      = ∑ k : Fin 128, (x0 (ix2 p k) * x1 (ix2 p (0 : Fin 1))) * x2 (ix2 k q) := by
  unfold k4_pay1
  show FloatOps.matmul dot_S10000x128_S128x128_S10000x128_1_0_0_1_n_n none
      (truncf (F := Ideal) (φ := .f32) .bf16 (mulf (F := Ideal) (φ := .f32) (shapeCast (α := Ideal .f32) S10000x128 x0 _)
        (broadcastTo S10000x128 (shapeCast (α := Ideal .f32) S10000x1 x1 _) _)) _)
      (truncf (F := Ideal) (φ := .f32) .bf16 x2 _) (constant (F := Ideal) S10000x128 .f32 0x00000000#32) (ix2 p q) = _
  rw [kdot128_eq, Cert.LibPlainDot.matmul_zero_apply]
  refine Finset.sum_congr rfl fun k _ => ?_
  rw [truncf_apply, truncf_apply, mulf_apply, Cert.LibColumn.broadcastTo_a1_ab_apply, shapeCast_self, shapeCast_self]

/-- Region 5's stored entry `(p, q)`: the larger of `a (p, q) · n p + b q` and zero. -/
theorem pay5_apply (x0 : Vec Ideal S10000x128 .f32) (x1 : Vec Ideal S10000x1 .f32) (x2 : Vec Ideal S1x128 .f32)
    (p : Fin 10000) (q : Fin 128) :
    k5_pay1 (F := Ideal) x0 x1 x2 (ix2 p q)
      = max (x0 (ix2 p q) * x1 (ix2 p (0 : Fin 1)) + x2 (ix2 (0 : Fin 1) q)) (Ideal.ofBits .f32 0x00000000#32) := by
  unfold k5_pay1
  show maximumf (addf (mulf (shapeCast S10000x128 (x0 : FVec Ideal S10000x128 .f32) _)
        (broadcastTo S10000x128 (shapeCast S10000x1 (x1 : FVec Ideal S10000x1 .f32) _) _))
      (broadcastTo S10000x128 (shapeCast S1x128 (x2 : FVec Ideal S1x128 .f32) _) _))
      (broadcast S10000x128 (Scalar.ofBits (F := Ideal) .f32 0x00000000#32)) (ix2 p q) = _
  rw [maximumf_apply, addf_apply, mulf_apply, broadcast_apply, Cert.LibColumn.broadcastTo_a1_ab_apply,
    broadcastTo_1b_ab_apply, shapeCast_self, shapeCast_self, shapeCast_self]
  rfl

/-- Region 6's stored entry `(p, q)`: the sum over `k` of `(x (p, k) · n p) · W (k, q)`. -/
theorem pay6_apply (x0 : Vec Ideal S10000x128 .f32) (x1 : Vec Ideal S10000x1 .f32) (x2 : Vec Ideal S128x40 .f32)
    (p : Fin 10000) (q : Fin 40) :
    k6_pay1 (F := Ideal) x0 x1 x2 (ix2 p q)
      = ∑ k : Fin 128, (x0 (ix2 p k) * x1 (ix2 p (0 : Fin 1))) * x2 (ix2 k q) := by
  unfold k6_pay1
  show FloatOps.matmul dot_S10000x128_S128x40_S10000x40_1_0_0_1_n_n none
      (truncf (F := Ideal) (φ := .f32) .bf16 (mulf (F := Ideal) (φ := .f32) (shapeCast (α := Ideal .f32) S10000x128 x0 _)
        (broadcastTo S10000x128 (shapeCast (α := Ideal .f32) S10000x1 x1 _) _)) _)
      (truncf (F := Ideal) (φ := .f32) .bf16 x2 _) (constant (F := Ideal) S10000x40 .f32 0x00000000#32) (ix2 p q) = _
  rw [kdot40_eq, Cert.LibPlainDot.matmul_zero_apply]
  refine Finset.sum_congr rfl fun k _ => ?_
  rw [truncf_apply, truncf_apply, mulf_apply, Cert.LibColumn.broadcastTo_a1_ab_apply, shapeCast_self, shapeCast_self]

/-- Region 7's stored entry `(p, q)`: `a (p, q) · n p + b q`. -/
theorem pay7_apply (x0 : Vec Ideal S10000x40 .f32) (x1 : Vec Ideal S10000x1 .f32) (x2 : Vec Ideal S1x40 .f32)
    (p : Fin 10000) (q : Fin 40) :
    k7_pay1 (F := Ideal) x0 x1 x2 (ix2 p q) = x0 (ix2 p q) * x1 (ix2 p (0 : Fin 1)) + x2 (ix2 (0 : Fin 1) q) := by
  unfold k7_pay1
  show addf (F := Ideal) (φ := .f32) (mulf (F := Ideal) (φ := .f32) (shapeCast (α := Ideal .f32) S10000x40 x0 _)
        (broadcastTo S10000x40 (shapeCast (α := Ideal .f32) S10000x1 x1 _) _))
      (broadcastTo S10000x40 (shapeCast (α := Ideal .f32) S1x40 x2 _) _) (ix2 p q) = _
  rw [addf_apply, mulf_apply, Cert.LibColumn.broadcastTo_a1_ab_apply, broadcastTo_1b_ab_apply, shapeCast_self,
    shapeCast_self, shapeCast_self]

end Cert.Gcn.Body

end
-- ==== Proof.Region0.lean ====
/-
  Region 0: the first layer's scaling, block by block, is the whole-array product.

  The grid has ten points; point `t` stages rows `10000 t … 10000 t + 9999` of the node array and of the norm column and
  the whole weight matrix, and writes back the same rows of the result. So what point `t` writes is the block of rows of
  `(x · n) W` it covers — each entry the same sum over the contracted axis, read through the block — the ten blocks tile
  the array, and the array ends as that one function of the arrays the region found.
-/
import proofs.«123142_j11003706212774_1_alg».proof.Proof.Gen.KernelIdeal.Frame
import proofs.«123142_j11003706212774_1_alg».proof.Proof.Spec
import proofs.«123142_j11003706212774_1_alg».proof.Proof.Payload
import Idealize.ShloMosaic.Lib.Pipeline.Value

noncomputable section

open scoped BigOperators

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the weight matrix at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_ten (t : Fin cfg0.N) : t.val < 10 := lt_of_lt_of_eq t.isLt N_0

/-- Row `p` of point `t`'s block is row `10000 t + p` of the array. -/
def row (t : Fin cfg0.N) (p : Fin 10000) : Fin 100000 :=
  ⟨t.val * 10000 + p.val, by have := lt_ten t; have := p.isLt; omega⟩

/-- The node block read at `(p, k)`. -/
theorem blk_x (c : Dev nD) (t : Fin cfg0.N) (p : Fin 10000) (k : Fin 128) :
    iblk0 V c 0 t (ix2 p k) = V c main_arg0 (ix2 (row t p) k) := by
  obtain ⟨e0, e1, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The norm block read at `(p, 0)`. -/
theorem blk_n (c : Dev nD) (t : Fin cfg0.N) (p : Fin 10000) :
    iblk0 V c 1 t (ix2 p (0 : Fin 1)) = V c main_v10 (ix2 (row t p) (0 : Fin 1)) := by
  obtain ⟨-, -, e2, e3, -⟩ := idx_facts t
  show V c main_v10 (((cfg0.win 1).blk t).view.emb (ix2 p (0 : Fin 1))) = V c main_v10 (ix2 (row t p) (0 : Fin 1))
  refine congrArg (V c main_v10) (funext fun a => Fin.ext ?_)
  match a with
  | ⟨0, _⟩ => show win0_1.index t (0 : Fin 2) * 10000 + 1 * p.val = t.val * 10000 + p.val; omega
  | ⟨1, _⟩ => show win0_1.index t (1 : Fin 2) * 1 + 1 * 0 = 0; omega

/-- The weight block is the whole matrix. -/
theorem blk_w (c : Dev nD) (t : Fin cfg0.N) (k : Fin 128) (q : Fin 128) :
    iblk0 V c 2 t (ix2 k q) = V c main_arg3 (ix2 k q) := by
  obtain ⟨-, -, -, -, e4, e5, -⟩ := idx_facts t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Entry `(p, q)` of the result's block at point `t` is entry `(10000 t + p, q)` of the array. -/
theorem out_emb (t : Fin cfg0.N) (p : Fin 10000) (q : Fin 128) :
    ((cfg0.win 3).blk t).view.emb (ix2 p q) = ix2 (row t p) q := by
  obtain ⟨-, -, -, -, -, -, e6, e7⟩ := idx_facts t
  refine funext fun a => Fin.ext ?_
  match a with
  | ⟨0, _⟩ => show win0_3.index t (0 : Fin 2) * 10000 + 1 * p.val = t.val * 10000 + p.val; omega
  | ⟨1, _⟩ => show win0_3.index t (1 : Fin 2) * 128 + 1 * q.val = q.val; omega

/-- WHAT POINT `t` WRITES BACK is block `t` of `(x · n) W` of the arrays as the region finds them. -/
theorem flushed_eq (c : Dev nD) (t : Fin cfg0.N) :
    (dat0 V c).flushed 3 t = ((cfg0.win 3).blk t).view.read (Elt Ideal)
      (Cert.Gcn.scaleDot (V c main_arg0) (V c main_v10) (V c main_arg3)) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz,
    View.ld_unit_zero (S := S128x128) hz]
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (ix2 p q)
      = Cert.Gcn.scaleDot (V c main_arg0) (V c main_v10) (V c main_arg3) (((cfg0.win 3).blk t).view.emb (ix2 p q))
  rw [out_emb t p q]
  refine (Cert.Gcn.Body.pay0_apply _ _ _ p q).trans ?_
  rw [Cert.Gcn.scaleDot_apply]
  refine Finset.sum_congr rfl fun k _ => ?_
  rw [blk_x V c t p k, blk_n V c t p, blk_w V c t k q]

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v15).slice (win0_3.rect t)).set ↔ _
  rw [View.set_slice_whole, Rect.mem_set_unit]
  exact Iff.rfl

/-- The ten blocks tile the array: row `r` is in the block of point `r / 10000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, lt_of_lt_of_eq (by omega : (i 0).val / 10000 < 10) N_0.symm⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- THE ARRAY after the region: `(x · n) W` of the arrays the region found. -/
theorem final (c : Dev nD) :
    (dat0 V c).arrAt 3 cfg0.N = Cert.Gcn.scaleDot (V c main_arg0) (V c main_v10) (V c main_arg3) :=
  (dat0 V c).arrAt_eq_of_cover 3 _ (fun t _ => flushed_eq V c t) cover

end Cert.Gcn.Region0

end
-- ==== Proof.Region1.lean ====
/-
  Region 1: the hidden layer's bias step, block by block, is the whole-array the larger of `a · n + b` and zero.

  The grid has ten points; point `t` stages rows `10000 t … 10000 t + 9999` of the aggregated array and of the norm
  column and the whole bias row, and writes back the same rows of the result. So what point `t` writes is the block of
  rows of the larger of `a · n + b` and zero it covers, entry by entry; the ten blocks tile the array, and the array ends as that one function
  of the arrays the region found.
-/
import proofs.«123142_j11003706212774_1_alg».proof.Proof.Gen.KernelIdeal.Frame
import proofs.«123142_j11003706212774_1_alg».proof.Proof.Spec
import proofs.«123142_j11003706212774_1_alg».proof.Proof.Payload
import Idealize.ShloMosaic.Lib.Pipeline.Value

noncomputable section

open scoped BigOperators

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the bias row at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_ten (t : Fin cfg1.N) : t.val < 10 := lt_of_lt_of_eq t.isLt N_1

/-- Row `p` of point `t`'s block is row `10000 t + p` of the array. -/
def row (t : Fin cfg1.N) (p : Fin 10000) : Fin 100000 :=
  ⟨t.val * 10000 + p.val, by have := lt_ten t; have := p.isLt; omega⟩

/-- The aggregated block read at `(p, q)`. -/
theorem blk_a (c : Dev nD) (t : Fin cfg1.N) (p : Fin 10000) (q : Fin 128) :
    iblk1 V c 0 t (ix2 p q) = V c main_v25 (ix2 (row t p) q) := by
  obtain ⟨e0, e1, -⟩ := idx_facts t
  show V c main_v25 (((cfg1.win 0).blk t).view.emb (ix2 p q)) = V c main_v25 (ix2 (row t p) q)
  refine congrArg (V c main_v25) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * q.val = q.val; omega

/-- The norm block read at `(p, 0)`. -/
theorem blk_n (c : Dev nD) (t : Fin cfg1.N) (p : Fin 10000) :
    iblk1 V c 1 t (ix2 p (0 : Fin 1)) = V c main_v14 (ix2 (row t p) (0 : Fin 1)) := by
  obtain ⟨-, -, e2, e3, -⟩ := idx_facts t
  show V c main_v14 (((cfg1.win 1).blk t).view.emb (ix2 p (0 : Fin 1))) = V c main_v14 (ix2 (row t p) (0 : Fin 1))
  refine congrArg (V c main_v14) (funext fun a => Fin.ext ?_)
  match a with
  | ⟨0, _⟩ => show win1_1.index t (0 : Fin 2) * 10000 + 1 * p.val = t.val * 10000 + p.val; omega
  | ⟨1, _⟩ => show win1_1.index t (1 : Fin 2) * 1 + 1 * 0 = 0; omega

/-- The bias block is the whole row. -/
theorem blk_b (c : Dev nD) (t : Fin cfg1.N) (q : Fin 128) :
    iblk1 V c 2 t (ix2 (0 : Fin 1) q) = V c main_v26 (ix2 (0 : Fin 1) q) := by
  obtain ⟨-, -, -, -, e4, e5, -⟩ := idx_facts t
  show V c main_v26 (((cfg1.win 2).blk t).view.emb (ix2 (0 : Fin 1) q)) = V c main_v26 (ix2 (0 : Fin 1) q)
  refine congrArg (V c main_v26) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Entry `(p, q)` of the result's block at point `t` is entry `(10000 t + p, q)` of the array. -/
theorem out_emb (t : Fin cfg1.N) (p : Fin 10000) (q : Fin 128) :
    ((cfg1.win 3).blk t).view.emb (ix2 p q) = ix2 (row t p) q := by
  obtain ⟨-, -, -, -, -, -, e6, e7⟩ := idx_facts t
  refine funext fun a => Fin.ext ?_
  match a with
  | ⟨0, _⟩ => show win1_3.index t (0 : Fin 2) * 10000 + 1 * p.val = t.val * 10000 + p.val; omega
  | ⟨1, _⟩ => show win1_3.index t (1 : Fin 2) * 128 + 1 * q.val = q.val; omega

/-- WHAT POINT `t` WRITES BACK is block `t` of the larger of `a · n + b` and zero of the arrays as the region finds them. -/
theorem flushed_eq (c : Dev nD) (t : Fin cfg1.N) :
    (dat1 V c).flushed 3 t = ((cfg1.win 3).blk t).view.read (Elt Ideal)
      (Cert.Gcn.relu (Cert.Gcn.scaleBias (V c main_v25) (V c main_v14) (V c main_v26))) := by
  show (cfg1.win 3).cut (grid1.coords t) ((dat1 V c).after 3 t) = _
  rw [after1_3]
  unfold out1_3
  rw [View.canon_unit_zero hz]
  simp only [View.ld_unit_zero (S := S10000x128) hz, View.ld_unit_zero (S := S10000x1) hz,
    View.ld_unit_zero (S := S1x128) hz]
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (ix2 p q)
      = (Cert.Gcn.relu (Cert.Gcn.scaleBias (V c main_v25) (V c main_v14) (V c main_v26))) (((cfg1.win 3).blk t).view.emb (ix2 p q))
  rw [out_emb t p q]
  refine (Cert.Gcn.Body.pay1_apply _ _ _ p q).trans ?_
  rw [Cert.Gcn.relu_apply, Cert.Gcn.scaleBias_apply, blk_a V c t p q, blk_n V c t p, blk_b V c t q]

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v27).slice (win1_3.rect t)).set ↔ _
  rw [View.set_slice_whole, Rect.mem_set_unit]
  exact Iff.rfl

/-- The ten blocks tile the array: row `r` is in the block of point `r / 10000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, lt_of_lt_of_eq (by omega : (i 0).val / 10000 < 10) N_1.symm⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- THE ARRAY after the region: the larger of `a · n + b` and zero of the arrays the region found. -/
theorem final (c : Dev nD) :
    (dat1 V c).arrAt 3 cfg1.N = Cert.Gcn.relu (Cert.Gcn.scaleBias (V c main_v25) (V c main_v14) (V c main_v26)) :=
  (dat1 V c).arrAt_eq_of_cover 3 _ (fun t _ => flushed_eq V c t) cover

end Cert.Gcn.Region1

end
-- ==== Proof.Region2.lean ====
/-
  Region 2: the second layer's scaling, block by block, is the whole-array product.

  The grid has ten points; point `t` stages rows `10000 t … 10000 t + 9999` of the node array and of the norm column and
  the whole weight matrix, and writes back the same rows of the result. So what point `t` writes is the block of rows of
  `(x · n) W` it covers — each entry the same sum over the contracted axis, read through the block — the ten blocks tile
  the array, and the array ends as that one function of the arrays the region found.
-/
import proofs.«123142_j11003706212774_1_alg».proof.Proof.Gen.KernelIdeal.Frame
import proofs.«123142_j11003706212774_1_alg».proof.Proof.Spec
import proofs.«123142_j11003706212774_1_alg».proof.Proof.Payload
import Idealize.ShloMosaic.Lib.Pipeline.Value

noncomputable section

open scoped BigOperators

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the weight matrix at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_ten (t : Fin cfg2.N) : t.val < 10 := lt_of_lt_of_eq t.isLt N_2

/-- Row `p` of point `t`'s block is row `10000 t + p` of the array. -/
def row (t : Fin cfg2.N) (p : Fin 10000) : Fin 100000 :=
  ⟨t.val * 10000 + p.val, by have := lt_ten t; have := p.isLt; omega⟩

/-- The node block read at `(p, k)`. -/
theorem blk_x (c : Dev nD) (t : Fin cfg2.N) (p : Fin 10000) (k : Fin 128) :
    iblk2 V c 0 t (ix2 p k) = V c main_v27 (ix2 (row t p) k) := by
  obtain ⟨e0, e1, -⟩ := idx_facts t
  show V c main_v27 (((cfg2.win 0).blk t).view.emb (ix2 p k)) = V c main_v27 (ix2 (row t p) k)
  refine congrArg (V c main_v27) (funext fun a => Fin.ext ?_)
  match a with
  | ⟨0, _⟩ => show win2_0.index t (0 : Fin 2) * 10000 + 1 * p.val = t.val * 10000 + p.val; omega
  | ⟨1, _⟩ => show win2_0.index t (1 : Fin 2) * 128 + 1 * k.val = k.val; omega

/-- The norm block read at `(p, 0)`. -/
theorem blk_n (c : Dev nD) (t : Fin cfg2.N) (p : Fin 10000) :
    iblk2 V c 1 t (ix2 p (0 : Fin 1)) = V c main_v10 (ix2 (row t p) (0 : Fin 1)) := by
  obtain ⟨-, -, e2, e3, -⟩ := idx_facts t
  show V c main_v10 (((cfg2.win 1).blk t).view.emb (ix2 p (0 : Fin 1))) = V c main_v10 (ix2 (row t p) (0 : Fin 1))
  refine congrArg (V c main_v10) (funext fun a => Fin.ext ?_)
  match a with
  | ⟨0, _⟩ => show win2_1.index t (0 : Fin 2) * 10000 + 1 * p.val = t.val * 10000 + p.val; omega
  | ⟨1, _⟩ => show win2_1.index t (1 : Fin 2) * 1 + 1 * 0 = 0; omega

/-- The weight block is the whole matrix. -/
theorem blk_w (c : Dev nD) (t : Fin cfg2.N) (k : Fin 128) (q : Fin 128) :
    iblk2 V c 2 t (ix2 k q) = V c main_arg5 (ix2 k q) := by
  obtain ⟨-, -, -, -, e4, e5, -⟩ := idx_facts t
  show V c main_arg5 (((cfg2.win 2).blk t).view.emb (ix2 k q)) = V c main_arg5 (ix2 k q)
  refine congrArg (V c main_arg5) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- Entry `(p, q)` of the result's block at point `t` is entry `(10000 t + p, q)` of the array. -/
theorem out_emb (t : Fin cfg2.N) (p : Fin 10000) (q : Fin 128) :
    ((cfg2.win 3).blk t).view.emb (ix2 p q) = ix2 (row t p) q := by
  obtain ⟨-, -, -, -, -, -, e6, e7⟩ := idx_facts t
  refine funext fun a => Fin.ext ?_
  match a with
  | ⟨0, _⟩ => show win2_3.index t (0 : Fin 2) * 10000 + 1 * p.val = t.val * 10000 + p.val; omega
  | ⟨1, _⟩ => show win2_3.index t (1 : Fin 2) * 128 + 1 * q.val = q.val; omega

/-- WHAT POINT `t` WRITES BACK is block `t` of `(x · n) W` of the arrays as the region finds them. -/
theorem flushed_eq (c : Dev nD) (t : Fin cfg2.N) :
    (dat2 V c).flushed 3 t = ((cfg2.win 3).blk t).view.read (Elt Ideal)
      (Cert.Gcn.scaleDot (V c main_v27) (V c main_v10) (V c main_arg5)) := by
  show (cfg2.win 3).cut (grid2.coords t) ((dat2 V c).after 3 t) = _
  rw [after2_3]
  unfold out2_3
  rw [View.canon_unit_zero hz]
  simp only [View.ld_unit_zero (S := S10000x128) hz, View.ld_unit_zero (S := S10000x1) hz,
    View.ld_unit_zero (S := S128x128) hz]
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (iblk2 V c 2 t) (ix2 p q)
      = Cert.Gcn.scaleDot (V c main_v27) (V c main_v10) (V c main_arg5) (((cfg2.win 3).blk t).view.emb (ix2 p q))
  rw [out_emb t p q]
  refine (Cert.Gcn.Body.pay2_apply _ _ _ p q).trans ?_
  rw [Cert.Gcn.scaleDot_apply]
  refine Finset.sum_congr rfl fun k _ => ?_
  rw [blk_x V c t p k, blk_n V c t p, blk_w V c t k q]

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v28).slice (win2_3.rect t)).set ↔ _
  rw [View.set_slice_whole, Rect.mem_set_unit]
  exact Iff.rfl

/-- The ten blocks tile the array: row `r` is in the block of point `r / 10000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 128 ≤ (i 1).val ∧ (i 1).val < win2_3.index t (1 : Fin 2) * 128 + 128
    omega

/-- THE ARRAY after the region: `(x · n) W` of the arrays the region found. -/
theorem final (c : Dev nD) :
    (dat2 V c).arrAt 3 cfg2.N = Cert.Gcn.scaleDot (V c main_v27) (V c main_v10) (V c main_arg5) :=
  (dat2 V c).arrAt_eq_of_cover 3 _ (fun t _ => flushed_eq V c t) cover

end Cert.Gcn.Region2

end
-- ==== Proof.Region3.lean ====
/-
  Region 3: the hidden layer's bias step, block by block, is the whole-array the larger of `a · n + b` and zero.

  The grid has ten points; point `t` stages rows `10000 t … 10000 t + 9999` of the aggregated array and of the norm
  column and the whole bias row, and writes back the same rows of the result. So what point `t` writes is the block of
  rows of the larger of `a · n + b` and zero it covers, entry by entry; the ten blocks tile the array, and the array ends as that one function
  of the arrays the region found.
-/
import proofs.«123142_j11003706212774_1_alg».proof.Proof.Gen.KernelIdeal.Frame
import proofs.«123142_j11003706212774_1_alg».proof.Proof.Spec
import proofs.«123142_j11003706212774_1_alg».proof.Proof.Payload
import Idealize.ShloMosaic.Lib.Pipeline.Value

noncomputable section

open scoped BigOperators

namespace Cert.Gcn.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the bias row at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt_ten (t : Fin cfg3.N) : t.val < 10 := lt_of_lt_of_eq t.isLt N_3

/-- Row `p` of point `t`'s block is row `10000 t + p` of the array. -/
def row (t : Fin cfg3.N) (p : Fin 10000) : Fin 100000 :=
  ⟨t.val * 10000 + p.val, by have := lt_ten t; have := p.isLt; omega⟩

/-- The aggregated block read at `(p, q)`. -/
theorem blk_a (c : Dev nD) (t : Fin cfg3.N) (p : Fin 10000) (q : Fin 128) :
    iblk3 V c 0 t (ix2 p q) = V c main_v38 (ix2 (row t p) q) := by
  obtain ⟨e0, e1, -⟩ := idx_facts t
  show V c main_v38 (((cfg3.win 0).blk t).view.emb (ix2 p q)) = V c main_v38 (ix2 (row t p) q)
  refine congrArg (V c main_v38) (funext fun a => Fin.ext ?_)
  match a with
  | ⟨0, _⟩ => show win3_0.index t (0 : Fin 2) * 10000 + 1 * p.val = t.val * 10000 + p.val; omega
  | ⟨1, _⟩ => show win3_0.index t (1 : Fin 2) * 128 + 1 * q.val = q.val; omega

/-- The norm block read at `(p, 0)`. -/
theorem blk_n (c : Dev nD) (t : Fin cfg3.N) (p : Fin 10000) :
    iblk3 V c 1 t (ix2 p (0 : Fin 1)) = V c main_v14 (ix2 (row t p) (0 : Fin 1)) := by
  obtain ⟨-, -, e2, e3, -⟩ := idx_facts t
  show V c main_v14 (((cfg3.win 1).blk t).view.emb (ix2 p (0 : Fin 1))) = V c main_v14 (ix2 (row t p) (0 : Fin 1))
  refine congrArg (V c main_v14) (funext fun a => Fin.ext ?_)
  match a with
  | ⟨0, _⟩ => show win3_1.index t (0 : Fin 2) * 10000 + 1 * p.val = t.val * 10000 + p.val; omega
  | ⟨1, _⟩ => show win3_1.index t (1 : Fin 2) * 1 + 1 * 0 = 0; omega

/-- The bias block is the whole row. -/
theorem blk_b (c : Dev nD) (t : Fin cfg3.N) (q : Fin 128) :
    iblk3 V c 2 t (ix2 (0 : Fin 1) q) = V c main_v39 (ix2 (0 : Fin 1) q) := by
  obtain ⟨-, -, -, -, e4, e5, -⟩ := idx_facts t
  show V c main_v39 (((cfg3.win 2).blk t).view.emb (ix2 (0 : Fin 1) q)) = V c main_v39 (ix2 (0 : Fin 1) q)
  refine congrArg (V c main_v39) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- Entry `(p, q)` of the result's block at point `t` is entry `(10000 t + p, q)` of the array. -/
theorem out_emb (t : Fin cfg3.N) (p : Fin 10000) (q : Fin 128) :
    ((cfg3.win 3).blk t).view.emb (ix2 p q) = ix2 (row t p) q := by
  obtain ⟨-, -, -, -, -, -, e6, e7⟩ := idx_facts t
  refine funext fun a => Fin.ext ?_
  match a with
  | ⟨0, _⟩ => show win3_3.index t (0 : Fin 2) * 10000 + 1 * p.val = t.val * 10000 + p.val; omega
  | ⟨1, _⟩ => show win3_3.index t (1 : Fin 2) * 128 + 1 * q.val = q.val; omega

/-- WHAT POINT `t` WRITES BACK is block `t` of the larger of `a · n + b` and zero of the arrays as the region finds them. -/
theorem flushed_eq (c : Dev nD) (t : Fin cfg3.N) :
    (dat3 V c).flushed 3 t = ((cfg3.win 3).blk t).view.read (Elt Ideal)
      (Cert.Gcn.relu (Cert.Gcn.scaleBias (V c main_v38) (V c main_v14) (V c main_v39))) := by
  show (cfg3.win 3).cut (grid3.coords t) ((dat3 V c).after 3 t) = _
  rw [after3_3]
  unfold out3_3
  rw [View.canon_unit_zero hz]
  simp only [View.ld_unit_zero (S := S10000x128) hz, View.ld_unit_zero (S := S10000x1) hz,
    View.ld_unit_zero (S := S1x128) hz]
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (iblk3 V c 2 t) (ix2 p q)
      = (Cert.Gcn.relu (Cert.Gcn.scaleBias (V c main_v38) (V c main_v14) (V c main_v39))) (((cfg3.win 3).blk t).view.emb (ix2 p q))
  rw [out_emb t p q]
  refine (Cert.Gcn.Body.pay3_apply _ _ _ p q).trans ?_
  rw [Cert.Gcn.relu_apply, Cert.Gcn.scaleBias_apply, blk_a V c t p q, blk_n V c t p, blk_b V c t q]

/-- An index of the array is in point `t`'s block iff each coordinate is in the block's range on its axis. -/
theorem mem_blk (t : Fin cfg3.N) (i : S100000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v40).slice (win3_3.rect t)).set ↔ _
  rw [View.set_slice_whole, Rect.mem_set_unit]
  exact Iff.rfl

/-- The ten blocks tile the array: row `r` is in the block of point `r / 10000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ : ∃ t : Fin cfg3.N, t.val = (i 0).val / 10000 :=
    ⟨⟨(i 0).val / 10000, lt_of_lt_of_eq (by omega : (i 0).val / 10000 < 10) N_3.symm⟩, rfl⟩
  obtain ⟨-, -, -, -, -, -, e6, e7⟩ := idx_facts t
  refine ⟨t, flush3_3 t, ?_⟩
  rw [mem_blk]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 128 ≤ (i 1).val ∧ (i 1).val < win3_3.index t (1 : Fin 2) * 128 + 128
    omega

/-- THE ARRAY after the region: the larger of `a · n + b` and zero of the arrays the region found. -/
theorem final (c : Dev nD) :
    (dat3 V c).arrAt 3 cfg3.N = Cert.Gcn.relu (Cert.Gcn.scaleBias (V c main_v38) (V c main_v14) (V c main_v39)) :=
  (dat3 V c).arrAt_eq_of_cover 3 _ (fun t _ => flushed_eq V c t) cover

end Cert.Gcn.Region3

end
-- ==== Proof.Region4.lean ====
/-
  Region 4: the third layer's scaling, block by block, is the whole-array product.

  The grid has ten points; point `t` stages rows `10000 t … 10000 t + 9999` of the node array and of the norm column and
  the whole weight matrix, and writes back the same rows of the result. So what point `t` writes is the block of rows of
  `(x · n) W` it covers — each entry the same sum over the contracted axis, read through the block — the ten blocks tile
  the array, and the array ends as that one function of the arrays the region found.
-/
import proofs.«123142_j11003706212774_1_alg».proof.Proof.Gen.KernelIdeal.Frame
import proofs.«123142_j11003706212774_1_alg».proof.Proof.Spec
import proofs.«123142_j11003706212774_1_alg».proof.Proof.Payload
import Idealize.ShloMosaic.Lib.Pipeline.Value

noncomputable section

open scoped BigOperators

namespace Cert.Gcn.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the weight matrix at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem lt_ten (t : Fin cfg4.N) : t.val < 10 := lt_of_lt_of_eq t.isLt N_4

/-- Row `p` of point `t`'s block is row `10000 t + p` of the array. -/
def row (t : Fin cfg4.N) (p : Fin 10000) : Fin 100000 :=
  ⟨t.val * 10000 + p.val, by have := lt_ten t; have := p.isLt; omega⟩

/-- The node block read at `(p, k)`. -/
theorem blk_x (c : Dev nD) (t : Fin cfg4.N) (p : Fin 10000) (k : Fin 128) :
    iblk4 V c 0 t (ix2 p k) = V c main_v40 (ix2 (row t p) k) := by
  obtain ⟨e0, e1, -⟩ := idx_facts t
  show V c main_v40 (((cfg4.win 0).blk t).view.emb (ix2 p k)) = V c main_v40 (ix2 (row t p) k)
  refine congrArg (V c main_v40) (funext fun a => Fin.ext ?_)
  match a with
  | ⟨0, _⟩ => show win4_0.index t (0 : Fin 2) * 10000 + 1 * p.val = t.val * 10000 + p.val; omega
  | ⟨1, _⟩ => show win4_0.index t (1 : Fin 2) * 128 + 1 * k.val = k.val; omega

/-- The norm block read at `(p, 0)`. -/
theorem blk_n (c : Dev nD) (t : Fin cfg4.N) (p : Fin 10000) :
    iblk4 V c 1 t (ix2 p (0 : Fin 1)) = V c main_v10 (ix2 (row t p) (0 : Fin 1)) := by
  obtain ⟨-, -, e2, e3, -⟩ := idx_facts t
  show V c main_v10 (((cfg4.win 1).blk t).view.emb (ix2 p (0 : Fin 1))) = V c main_v10 (ix2 (row t p) (0 : Fin 1))
  refine congrArg (V c main_v10) (funext fun a => Fin.ext ?_)
  match a with
  | ⟨0, _⟩ => show win4_1.index t (0 : Fin 2) * 10000 + 1 * p.val = t.val * 10000 + p.val; omega
  | ⟨1, _⟩ => show win4_1.index t (1 : Fin 2) * 1 + 1 * 0 = 0; omega

/-- The weight block is the whole matrix. -/
theorem blk_w (c : Dev nD) (t : Fin cfg4.N) (k : Fin 128) (q : Fin 128) :
    iblk4 V c 2 t (ix2 k q) = V c main_arg5 (ix2 k q) := by
  obtain ⟨-, -, -, -, e4, e5, -⟩ := idx_facts t
  show V c main_arg5 (((cfg4.win 2).blk t).view.emb (ix2 k q)) = V c main_arg5 (ix2 k q)
  refine congrArg (V c main_arg5) (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- Entry `(p, q)` of the result's block at point `t` is entry `(10000 t + p, q)` of the array. -/
theorem out_emb (t : Fin cfg4.N) (p : Fin 10000) (q : Fin 128) :
    ((cfg4.win 3).blk t).view.emb (ix2 p q) = ix2 (row t p) q := by
  obtain ⟨-, -, -, -, -, -, e6, e7⟩ := idx_facts t
  refine funext fun a => Fin.ext ?_
  match a with
  | ⟨0, _⟩ => show win4_3.index t (0 : Fin 2) * 10000 + 1 * p.val = t.val * 10000 + p.val; omega
  | ⟨1, _⟩ => show win4_3.index t (1 : Fin 2) * 128 + 1 * q.val = q.val; omega

/-- WHAT POINT `t` WRITES BACK is block `t` of `(x · n) W` of the arrays as the region finds them. -/
theorem flushed_eq (c : Dev nD) (t : Fin cfg4.N) :
    (dat4 V c).flushed 3 t = ((cfg4.win 3).blk t).view.read (Elt Ideal)
      (Cert.Gcn.scaleDot (V c main_v40) (V c main_v10) (V c main_arg5)) := by
  show (cfg4.win 3).cut (grid4.coords t) ((dat4 V c).after 3 t) = _
  rw [after4_3]
  unfold out4_3
  rw [View.canon_unit_zero hz]
  simp only [View.ld_unit_zero (S := S10000x128) hz, View.ld_unit_zero (S := S10000x1) hz,
    View.ld_unit_zero (S := S128x128) hz]
  funext j
  obtain ⟨p, q, rfl⟩ : ∃ (p : Fin 10000) (q : Fin 128), j = ix2 p q := ⟨j 0, j 1, eq_ix2 j⟩
  show k4_pay1 (F := Ideal) (iblk4 V c 0 t) (iblk4 V c 1 t) (iblk4 V c 2 t) (ix2 p q)
      = Cert.Gcn.scaleDot (V c main_v40) (V c main_v10) (V c main_arg5) (((cfg4.win 3).blk t).view.emb (ix2 p q))
  rw [out_emb t p q]
  refine (Cert.Gcn.Body.pay4_apply _ _ _ p q).trans ?_
  rw [Cert.Gcn.scaleDot_apply]
  refine Finset.sum_congr rfl fun k _ => ?_
  rw [blk_x V c t p k, blk_n V c t p, blk_w V c t k q]

/-- An index of the array is in point `t`'s block iff each coordinate is in the block's range on its axis. -/
theorem mem_blk (t : Fin cfg4.N) (i : S100000x128.Idx) :
    i ∈ ((cfg4.win 3).blk t).view.set ↔ ∀ a : Fin 2, win4_3.index t a * S10000x128.size a ≤ (i a).val
      ∧ (i a).val < win4_3.index t a * S10000x128.size a + S10000x128.size a := by
  show i ∈ ((View.whole main_v41).slice (win4_3.rect t)).set ↔ _
  rw [View.set_slice_whole, Rect.mem_set_unit]
  exact Iff.rfl

/-- The ten blocks tile the array: row `r` is in the block of point `r / 10000`. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ : ∃ t : Fin cfg4.N, t.val = (i 0).val / 10000 :=
    ⟨⟨(i 0).val / 10000, lt_of_lt_of_eq (by omega : (i 0).val / 10000 < 10) N_4.symm⟩, rfl⟩
  obtain ⟨-, -, -, -, -, -, e6, e7⟩ := idx_facts t
  refine ⟨t, flush4_3 t, ?_⟩
  rw [mem_blk]
  intro a
  match a with
  | ⟨0, _⟩ =>
    show win4_3.index t (0 : Fin 2) * 10000 ≤ (i 0).val ∧ (i 0).val < win4_3.index t (0 : Fin 2) * 10000 + 10000
    omega
  | ⟨1, _⟩ =>
    show win4_3.index t (1 : Fin 2) * 128 ≤ (i 1).val ∧ (i 1).val < win4_3.index t (1 : Fin 2) * 128 + 128
    omega

/-- THE ARRAY after the region: `(x · n) W` of the arrays the region found. -/
theorem final (c : Dev nD) :
    (dat4 V c).arrAt 3 cfg4.N = Cert.Gcn.scaleDot (V c main_v40) (V c main_v10) (V c main_arg5) :=
  (dat4 V c).arrAt_eq_of_cover 3 _ (fun t _ => flushed_eq V c t) cover

end Cert.Gcn.Region4

end
-- ==== Proof.Region5.lean ====
/-
  Region 5: the hidden layer's bias step, block by block, is the whole-array the larger of `a · n + b` and zero.

  The grid has ten points; point `t` stages rows `10000 t … 10000 t + 9999` of the aggregated array and of the norm
  column and the whole bias row, and writes back the same rows of the result. So what point `t` writes is the block of
  rows of the larger of `a · n + b` and zero it covers, entry by entry; the ten blocks tile the array, and the array ends as that one function
  of the arrays the region found.
-/
import proofs.«123142_j11003706212774_1_alg».proof.Proof.Gen.KernelIdeal.Frame
import proofs.«123142_j11003706212774_1_alg».proof.Proof.Spec
import proofs.«123142_j11003706212774_1_alg».proof.Proof.Payload
import Idealize.ShloMosaic.Lib.Pipeline.Value

noncomputable section

open scoped BigOperators

namespace Cert.Gcn.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the bias row at block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem lt_ten (t : Fin cfg5.N) : t.val < 10 := lt_of_lt_of_eq t.isLt N_5

/-- Row `p` of point `t`'s block is row `10000 t + p` of the array. -/
def row (t : Fin cfg5.N) (p : Fin 10000) : Fin 100000 :=
  ⟨t.val * 10000 + p.val, by have := lt_ten t; have := p.isLt; omega⟩

/-- The aggregated block read at `(p, q)`. -/
theorem blk_a (c : Dev nD) (t : Fin cfg5.N) (p : Fin 10000) (q : Fin 128) :
    iblk5 V c 0 t (ix2 p q) = V c main_v51 (ix2 (row t p) q) := by
  obtain ⟨e0, e1, -⟩ := idx_facts t
  show V c main_v51 (((cfg5.win 0).blk t).view.emb (ix2 p q)) = V c main_v51 (ix2 (row t p) q)
  refine congrArg (V c main_v51) (funext fun a => Fin.ext ?_)
  match a with
  | ⟨0, _⟩ => show win5_0.index t (0 : Fin 2) * 10000 + 1 * p.val = t.val * 10000 + p.val; omega
  | ⟨1, _⟩ => show win5_0.index t (1 : Fin 2) * 128 + 1 * q.val = q.val; omega

/-- The norm block read at `(p, 0)`. -/
theorem blk_n (c : Dev nD) (t : Fin cfg5.N) (p : Fin 10000) :
    iblk5 V c 1 t (ix2 p (0 : Fin 1)) = V c main_v14 (ix2 (row t p) (0 : Fin 1)) := by
  obtain ⟨-, -, e2, e3, -⟩ := idx_facts t
  show V c main_v14 (((cfg5.win 1).blk t).view.emb (ix2 p (0 : Fin 1))) = V c main_v14 (ix2 (row t p) (0 : Fin 1))
  refine congrArg (V c main_v14) (funext fun a => Fin.ext ?_)
  match a with
  | ⟨0, _⟩ => show win5_1.index t (0 : Fin 2) * 10000 + 1 * p.val = t.val * 10000 + p.val; omega
  | ⟨1, _⟩ => show win5_1.index t (1 : Fin 2) * 1 + 1 * 0 = 0; omega

/-- The bias block is the whole row. -/
theorem blk_b (c : Dev nD) (t : Fin cfg5.N) (q : Fin 128) :
    iblk5 V c 2 t (ix2 (0 : Fin 1) q) = V c main_v52 (ix2 (0 : Fin 1) q) := by
  obtain ⟨-, -, -, -, e4, e5, -⟩ := idx_facts t
  show V c main_v52 (((cfg5.win 2).blk t).view.emb (ix2 (0 : Fin 1) q)) = V c main_v52 (ix2 (0 : Fin 1) q)
  refine congrArg (V c main_v52) (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega

/-- Entry `(p, q)` of the result's block at point `t` is entry `(10000 t + p, q)` of the array. -/
theorem out_emb (t : Fin cfg5.N) (p : Fin 10000) (q : Fin 128) :
    ((cfg5.win 3).blk t).view.emb (ix2 p q) = ix2 (row t p) q := by
  obtain ⟨-, -, -, -, -, -, e6, e7⟩ := idx_facts t
  refine funext fun a => Fin.ext ?_
  match a with
  | ⟨0, _⟩ => show win5_3.index t (0 : Fin 2) * 10000 + 1 * p.val = t.val * 10000 + p.val; omega
  | ⟨1, _⟩ => show win5_3.index t (1 : Fin 2) * 128 + 1 * q.val = q.val; omega

/-- WHAT POINT `t` WRITES BACK is block `t` of the larger of `a · n + b` and zero of the arrays as the region finds them. -/
theorem flushed_eq (c : Dev nD) (t : Fin cfg5.N) :
    (dat5 V c).flushed 3 t = ((cfg5.win 3).blk t).view.read (Elt Ideal)
      (Cert.Gcn.relu (Cert.Gcn.scaleBias (V c main_v51) (V c main_v14) (V c main_v52))) := by
  show (cfg5.win 3).cut (grid5.coords t) ((dat5 V c).after 3 t) = _
  rw [after5_3]
  unfold out5_3
  rw [View.canon_unit_zero hz]
  simp only [View.ld_unit_zero (S := S10000x128) hz, View.ld_unit_zero (S := S10000x1) hz,
    View.ld_unit_zero (S := S1x128) hz]
  funext j
  obtain ⟨p, q, rfl⟩ : ∃ (p : Fin 10000) (q : Fin 128), j = ix2 p q := ⟨j 0, j 1, eq_ix2 j⟩
  show k5_pay1 (F := Ideal) (iblk5 V c 0 t) (iblk5 V c 1 t) (iblk5 V c 2 t) (ix2 p q)
      = (Cert.Gcn.relu (Cert.Gcn.scaleBias (V c main_v51) (V c main_v14) (V c main_v52))) (((cfg5.win 3).blk t).view.emb (ix2 p q))
  rw [out_emb t p q]
  refine (Cert.Gcn.Body.pay5_apply _ _ _ p q).trans ?_
  rw [Cert.Gcn.relu_apply, Cert.Gcn.scaleBias_apply, blk_a V c t p q, blk_n V c t p, blk_b V c t q]

/-- An index of the array is in point `t`'s block iff each coordinate is in the block's range on its axis. -/
theorem mem_blk (t : Fin cfg5.N) (i : S100000x128.Idx) :
    i ∈ ((cfg5.win 3).blk t).view.set ↔ ∀ a : Fin 2, win5_3.index t a * S10000x128.size a ≤ (i a).val
      ∧ (i a).val < win5_3.index t a * S10000x128.size a + S10000x128.size a := by
  show i ∈ ((View.whole main_v53).slice (win5_3.rect t)).set ↔ _
  rw [View.set_slice_whole, Rect.mem_set_unit]
  exact Iff.rfl

/-- The ten blocks tile the array: row `r` is in the block of point `r / 10000`. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ : ∃ t : Fin cfg5.N, t.val = (i 0).val / 10000 :=
    ⟨⟨(i 0).val / 10000, lt_of_lt_of_eq (by omega : (i 0).val / 10000 < 10) N_5.symm⟩, rfl⟩
  obtain ⟨-, -, -, -, -, -, e6, e7⟩ := idx_facts t
  refine ⟨t, flush5_3 t, ?_⟩
  rw [mem_blk]
  intro a
  match a with
  | ⟨0, _⟩ =>
    show win5_3.index t (0 : Fin 2) * 10000 ≤ (i 0).val ∧ (i 0).val < win5_3.index t (0 : Fin 2) * 10000 + 10000
    omega
  | ⟨1, _⟩ =>
    show win5_3.index t (1 : Fin 2) * 128 ≤ (i 1).val ∧ (i 1).val < win5_3.index t (1 : Fin 2) * 128 + 128
    omega

/-- THE ARRAY after the region: the larger of `a · n + b` and zero of the arrays the region found. -/
theorem final (c : Dev nD) :
    (dat5 V c).arrAt 3 cfg5.N = Cert.Gcn.relu (Cert.Gcn.scaleBias (V c main_v51) (V c main_v14) (V c main_v52)) :=
  (dat5 V c).arrAt_eq_of_cover 3 _ (fun t _ => flushed_eq V c t) cover

end Cert.Gcn.Region5

end
-- ==== Proof.Region6.lean ====
/-
  Region 6: the output layer's scaling, block by block, is the whole-array product into 40 columns.

  The grid has ten points; point `t` stages rows `10000 t … 10000 t + 9999` of the node array and of the norm column and
  the whole weight matrix, and writes back the same rows of the result. So what point `t` writes is the block of rows of
  `(x · n) W` it covers — each entry the same sum over the contracted axis, read through the block — the ten blocks tile
  the array, and the array ends as that one function of the arrays the region found.
-/
import proofs.«123142_j11003706212774_1_alg».proof.Proof.Gen.KernelIdeal.Frame
import proofs.«123142_j11003706212774_1_alg».proof.Proof.Spec
import proofs.«123142_j11003706212774_1_alg».proof.Proof.Payload
import Idealize.ShloMosaic.Lib.Pipeline.Value

noncomputable section

open scoped BigOperators

namespace Cert.Gcn.Region6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the weight matrix at block 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem lt_ten (t : Fin cfg6.N) : t.val < 10 := lt_of_lt_of_eq t.isLt N_6

/-- Row `p` of point `t`'s block is row `10000 t + p` of the array. -/
def row (t : Fin cfg6.N) (p : Fin 10000) : Fin 100000 :=
  ⟨t.val * 10000 + p.val, by have := lt_ten t; have := p.isLt; omega⟩

/-- The node block read at `(p, k)`. -/
theorem blk_x (c : Dev nD) (t : Fin cfg6.N) (p : Fin 10000) (k : Fin 128) :
    iblk6 V c 0 t (ix2 p k) = V c main_v53 (ix2 (row t p) k) := by
  obtain ⟨e0, e1, -⟩ := idx_facts t
  show V c main_v53 (((cfg6.win 0).blk t).view.emb (ix2 p k)) = V c main_v53 (ix2 (row t p) k)
  refine congrArg (V c main_v53) (funext fun a => Fin.ext ?_)
  match a with
  | ⟨0, _⟩ => show win6_0.index t (0 : Fin 2) * 10000 + 1 * p.val = t.val * 10000 + p.val; omega
  | ⟨1, _⟩ => show win6_0.index t (1 : Fin 2) * 128 + 1 * k.val = k.val; omega

/-- The norm block read at `(p, 0)`. -/
theorem blk_n (c : Dev nD) (t : Fin cfg6.N) (p : Fin 10000) :
    iblk6 V c 1 t (ix2 p (0 : Fin 1)) = V c main_v10 (ix2 (row t p) (0 : Fin 1)) := by
  obtain ⟨-, -, e2, e3, -⟩ := idx_facts t
  show V c main_v10 (((cfg6.win 1).blk t).view.emb (ix2 p (0 : Fin 1))) = V c main_v10 (ix2 (row t p) (0 : Fin 1))
  refine congrArg (V c main_v10) (funext fun a => Fin.ext ?_)
  match a with
  | ⟨0, _⟩ => show win6_1.index t (0 : Fin 2) * 10000 + 1 * p.val = t.val * 10000 + p.val; omega
  | ⟨1, _⟩ => show win6_1.index t (1 : Fin 2) * 1 + 1 * 0 = 0; omega

/-- The weight block is the whole matrix. -/
theorem blk_w (c : Dev nD) (t : Fin cfg6.N) (k : Fin 128) (q : Fin 40) :
    iblk6 V c 2 t (ix2 k q) = V c main_arg7 (ix2 k q) := by
  obtain ⟨-, -, -, -, e4, e5, -⟩ := idx_facts t
  show V c main_arg7 (((cfg6.win 2).blk t).view.emb (ix2 k q)) = V c main_arg7 (ix2 k q)
  refine congrArg (V c main_arg7) (funext fun a => Fin.ext ?_)
  match a with
  | ⟨0, _⟩ => show win6_2.index t (0 : Fin 2) * 128 + 1 * k.val = k.val; omega
  | ⟨1, _⟩ => show win6_2.index t (1 : Fin 2) * 40 + 1 * q.val = q.val; omega

/-- Entry `(p, q)` of the result's block at point `t` is entry `(10000 t + p, q)` of the array. -/
theorem out_emb (t : Fin cfg6.N) (p : Fin 10000) (q : Fin 40) :
    ((cfg6.win 3).blk t).view.emb (ix2 p q) = ix2 (row t p) q := by
  obtain ⟨-, -, -, -, -, -, e6, e7⟩ := idx_facts t
  refine funext fun a => Fin.ext ?_
  match a with
  | ⟨0, _⟩ => show win6_3.index t (0 : Fin 2) * 10000 + 1 * p.val = t.val * 10000 + p.val; omega
  | ⟨1, _⟩ => show win6_3.index t (1 : Fin 2) * 40 + 1 * q.val = q.val; omega

/-- WHAT POINT `t` WRITES BACK is block `t` of `(x · n) W` of the arrays as the region finds them. -/
theorem flushed_eq (c : Dev nD) (t : Fin cfg6.N) :
    (dat6 V c).flushed 3 t = ((cfg6.win 3).blk t).view.read (Elt Ideal)
      (Cert.Gcn.scaleDot40 (V c main_v53) (V c main_v10) (V c main_arg7)) := by
  show (cfg6.win 3).cut (grid6.coords t) ((dat6 V c).after 3 t) = _
  rw [after6_3]
  unfold out6_3
  rw [View.canon_unit_zero hz]
  simp only [View.ld_unit_zero (S := S10000x128) hz, View.ld_unit_zero (S := S10000x1) hz,
    View.ld_unit_zero (S := S128x40) hz]
  funext j
  obtain ⟨p, q, rfl⟩ : ∃ (p : Fin 10000) (q : Fin 40), j = ix2 p q := ⟨j 0, j 1, eq_ix2 j⟩
  show k6_pay1 (F := Ideal) (iblk6 V c 0 t) (iblk6 V c 1 t) (iblk6 V c 2 t) (ix2 p q)
      = Cert.Gcn.scaleDot40 (V c main_v53) (V c main_v10) (V c main_arg7) (((cfg6.win 3).blk t).view.emb (ix2 p q))
  rw [out_emb t p q]
  refine (Cert.Gcn.Body.pay6_apply _ _ _ p q).trans ?_
  rw [Cert.Gcn.scaleDot40_apply]
  refine Finset.sum_congr rfl fun k _ => ?_
  rw [blk_x V c t p k, blk_n V c t p, blk_w V c t k q]

/-- An index of the array is in point `t`'s block iff each coordinate is in the block's range on its axis. -/
theorem mem_blk (t : Fin cfg6.N) (i : S100000x40.Idx) :
    i ∈ ((cfg6.win 3).blk t).view.set ↔ ∀ a : Fin 2, win6_3.index t a * S10000x40.size a ≤ (i a).val
      ∧ (i a).val < win6_3.index t a * S10000x40.size a + S10000x40.size a := by
  show i ∈ ((View.whole main_v54).slice (win6_3.rect t)).set ↔ _
  rw [View.set_slice_whole, Rect.mem_set_unit]
  exact Iff.rfl

/-- The ten blocks tile the array: row `r` is in the block of point `r / 10000`. -/
theorem cover (i : S100000x40.Idx) :
    ∃ t : Fin cfg6.N, (cfg6.win 3).flush t = true ∧ i ∈ ((cfg6.win 3).blk t).view.set := by
  have hi0 : (i 0).val < 100000 := (i 0).isLt
  have hi1 : (i 1).val < 40 := (i 1).isLt
  obtain ⟨t, ht⟩ : ∃ t : Fin cfg6.N, t.val = (i 0).val / 10000 :=
    ⟨⟨(i 0).val / 10000, lt_of_lt_of_eq (by omega : (i 0).val / 10000 < 10) N_6.symm⟩, rfl⟩
  obtain ⟨-, -, -, -, -, -, e6, e7⟩ := idx_facts t
  refine ⟨t, flush6_3 t, ?_⟩
  rw [mem_blk]
  intro a
  match a with
  | ⟨0, _⟩ =>
    show win6_3.index t (0 : Fin 2) * 10000 ≤ (i 0).val ∧ (i 0).val < win6_3.index t (0 : Fin 2) * 10000 + 10000
    omega
  | ⟨1, _⟩ =>
    show win6_3.index t (1 : Fin 2) * 40 ≤ (i 1).val ∧ (i 1).val < win6_3.index t (1 : Fin 2) * 40 + 40
    omega

/-- THE ARRAY after the region: `(x · n) W` of the arrays the region found. -/
theorem final (c : Dev nD) :
    (dat6 V c).arrAt 3 cfg6.N = Cert.Gcn.scaleDot40 (V c main_v53) (V c main_v10) (V c main_arg7) :=
  (dat6 V c).arrAt_eq_of_cover 3 _ (fun t _ => flushed_eq V c t) cover

end Cert.Gcn.Region6

end
-- ==== Proof.Region7.lean ====
/-
  Region 7: the output layer's bias step, block by block, is the whole-array `a · n + b`.

  The grid has ten points; point `t` stages rows `10000 t … 10000 t + 9999` of the aggregated array and of the norm
  column and the whole bias row, and writes back the same rows of the result. So what point `t` writes is the block of
  rows of `a · n + b` it covers, entry by entry; the ten blocks tile the array, and the array ends as that one function
  of the arrays the region found.
-/
import proofs.«123142_j11003706212774_1_alg».proof.Proof.Gen.KernelIdeal.Frame
import proofs.«123142_j11003706212774_1_alg».proof.Proof.Spec
import proofs.«123142_j11003706212774_1_alg».proof.Proof.Payload
import Idealize.ShloMosaic.Lib.Pipeline.Value

noncomputable section

open scoped BigOperators

namespace Cert.Gcn.Region7

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the bias row at block 0. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

theorem lt_ten (t : Fin cfg7.N) : t.val < 10 := lt_of_lt_of_eq t.isLt N_7

/-- Row `p` of point `t`'s block is row `10000 t + p` of the array. -/
def row (t : Fin cfg7.N) (p : Fin 10000) : Fin 100000 :=
  ⟨t.val * 10000 + p.val, by have := lt_ten t; have := p.isLt; omega⟩

/-- The aggregated block read at `(p, q)`. -/
theorem blk_a (c : Dev nD) (t : Fin cfg7.N) (p : Fin 10000) (q : Fin 40) :
    iblk7 V c 0 t (ix2 p q) = V c main_v64 (ix2 (row t p) q) := by
  obtain ⟨e0, e1, -⟩ := idx_facts t
  show V c main_v64 (((cfg7.win 0).blk t).view.emb (ix2 p q)) = V c main_v64 (ix2 (row t p) q)
  refine congrArg (V c main_v64) (funext fun a => Fin.ext ?_)
  match a with
  | ⟨0, _⟩ => show win7_0.index t (0 : Fin 2) * 10000 + 1 * p.val = t.val * 10000 + p.val; omega
  | ⟨1, _⟩ => show win7_0.index t (1 : Fin 2) * 40 + 1 * q.val = q.val; omega

/-- The norm block read at `(p, 0)`. -/
theorem blk_n (c : Dev nD) (t : Fin cfg7.N) (p : Fin 10000) :
    iblk7 V c 1 t (ix2 p (0 : Fin 1)) = V c main_v14 (ix2 (row t p) (0 : Fin 1)) := by
  obtain ⟨-, -, e2, e3, -⟩ := idx_facts t
  show V c main_v14 (((cfg7.win 1).blk t).view.emb (ix2 p (0 : Fin 1))) = V c main_v14 (ix2 (row t p) (0 : Fin 1))
  refine congrArg (V c main_v14) (funext fun a => Fin.ext ?_)
  match a with
  | ⟨0, _⟩ => show win7_1.index t (0 : Fin 2) * 10000 + 1 * p.val = t.val * 10000 + p.val; omega
  | ⟨1, _⟩ => show win7_1.index t (1 : Fin 2) * 1 + 1 * 0 = 0; omega

/-- The bias block is the whole row. -/
theorem blk_b (c : Dev nD) (t : Fin cfg7.N) (q : Fin 40) :
    iblk7 V c 2 t (ix2 (0 : Fin 1) q) = V c main_v65 (ix2 (0 : Fin 1) q) := by
  obtain ⟨-, -, -, -, e4, e5, -⟩ := idx_facts t
  show V c main_v65 (((cfg7.win 2).blk t).view.emb (ix2 (0 : Fin 1) q)) = V c main_v65 (ix2 (0 : Fin 1) q)
  refine congrArg (V c main_v65) (funext fun a => Fin.ext ?_)
  match a with
  | ⟨0, _⟩ => show win7_2.index t (0 : Fin 2) * 1 + 1 * 0 = 0; omega
  | ⟨1, _⟩ => show win7_2.index t (1 : Fin 2) * 40 + 1 * q.val = q.val; omega

/-- Entry `(p, q)` of the result's block at point `t` is entry `(10000 t + p, q)` of the array. -/
theorem out_emb (t : Fin cfg7.N) (p : Fin 10000) (q : Fin 40) :
    ((cfg7.win 3).blk t).view.emb (ix2 p q) = ix2 (row t p) q := by
  obtain ⟨-, -, -, -, -, -, e6, e7⟩ := idx_facts t
  refine funext fun a => Fin.ext ?_
  match a with
  | ⟨0, _⟩ => show win7_3.index t (0 : Fin 2) * 10000 + 1 * p.val = t.val * 10000 + p.val; omega
  | ⟨1, _⟩ => show win7_3.index t (1 : Fin 2) * 40 + 1 * q.val = q.val; omega

/-- WHAT POINT `t` WRITES BACK is block `t` of `a · n + b` of the arrays as the region finds them. -/
theorem flushed_eq (c : Dev nD) (t : Fin cfg7.N) :
    (dat7 V c).flushed 3 t = ((cfg7.win 3).blk t).view.read (Elt Ideal)
      (Cert.Gcn.scaleBias40 (V c main_v64) (V c main_v14) (V c main_v65)) := by
  show (cfg7.win 3).cut (grid7.coords t) ((dat7 V c).after 3 t) = _
  rw [after7_3]
  unfold out7_3
  rw [View.canon_unit_zero hz]
  simp only [View.ld_unit_zero (S := S10000x40) hz, View.ld_unit_zero (S := S10000x1) hz,
    View.ld_unit_zero (S := S1x40) hz]
  funext j
  obtain ⟨p, q, rfl⟩ : ∃ (p : Fin 10000) (q : Fin 40), j = ix2 p q := ⟨j 0, j 1, eq_ix2 j⟩
  show k7_pay1 (F := Ideal) (iblk7 V c 0 t) (iblk7 V c 1 t) (iblk7 V c 2 t) (ix2 p q)
      = (Cert.Gcn.scaleBias40 (V c main_v64) (V c main_v14) (V c main_v65)) (((cfg7.win 3).blk t).view.emb (ix2 p q))
  rw [out_emb t p q]
  refine (Cert.Gcn.Body.pay7_apply _ _ _ p q).trans ?_
  rw [Cert.Gcn.scaleBias40_apply, blk_a V c t p q, blk_n V c t p, blk_b V c t q]

/-- An index of the array is in point `t`'s block iff each coordinate is in the block's range on its axis. -/
theorem mem_blk (t : Fin cfg7.N) (i : S100000x40.Idx) :
    i ∈ ((cfg7.win 3).blk t).view.set ↔ ∀ a : Fin 2, win7_3.index t a * S10000x40.size a ≤ (i a).val
      ∧ (i a).val < win7_3.index t a * S10000x40.size a + S10000x40.size a := by
  show i ∈ ((View.whole main_v66).slice (win7_3.rect t)).set ↔ _
  rw [View.set_slice_whole, Rect.mem_set_unit]
  exact Iff.rfl

/-- The ten blocks tile the array: row `r` is in the block of point `r / 10000`. -/
theorem cover (i : S100000x40.Idx) :
    ∃ t : Fin cfg7.N, (cfg7.win 3).flush t = true ∧ i ∈ ((cfg7.win 3).blk t).view.set := by
  have hi0 : (i 0).val < 100000 := (i 0).isLt
  have hi1 : (i 1).val < 40 := (i 1).isLt
  obtain ⟨t, ht⟩ : ∃ t : Fin cfg7.N, t.val = (i 0).val / 10000 :=
    ⟨⟨(i 0).val / 10000, lt_of_lt_of_eq (by omega : (i 0).val / 10000 < 10) N_7.symm⟩, rfl⟩
  obtain ⟨-, -, -, -, -, -, e6, e7⟩ := idx_facts t
  refine ⟨t, flush7_3 t, ?_⟩
  rw [mem_blk]
  intro a
  match a with
  | ⟨0, _⟩ =>
    show win7_3.index t (0 : Fin 2) * 10000 ≤ (i 0).val ∧ (i 0).val < win7_3.index t (0 : Fin 2) * 10000 + 10000
    omega
  | ⟨1, _⟩ =>
    show win7_3.index t (1 : Fin 2) * 40 ≤ (i 1).val ∧ (i 1).val < win7_3.index t (1 : Fin 2) * 40 + 40
    omega

/-- THE ARRAY after the region: `a · n + b` of the arrays the region found. -/
theorem final (c : Dev nD) :
    (dat7 V c).arrAt 3 cfg7.N = Cert.Gcn.scaleBias40 (V c main_v64) (V c main_v14) (V c main_v65) :=
  (dat7 V c).arrAt_eq_of_cover 3 _ (fun t _ => flushed_eq V c t) cover

end Cert.Gcn.Region7

end
-- ==== Proof.Flow.lean ====
/-
  The idealized kernel's two results as functions of its arguments.

  Boundary by boundary: a scaling launch leaves `(x · n_out) W` of the arrays it found, the stretch after it the edge
  sum and the bias row, a bias launch `a · n_in + b` (the hidden layers' the larger of that and zero). Composed from
  the launch memory, the array the third bias launch leaves is the hidden state after three layers — the second result,
  which no later segment writes — and the array the last launch leaves is the output layer over it, the first result.
-/
import proofs.«123142_j11003706212774_1_alg».proof.Proof.FlowHost
import proofs.«123142_j11003706212774_1_alg».proof.Proof.Region0
import proofs.«123142_j11003706212774_1_alg».proof.Proof.Region1
import proofs.«123142_j11003706212774_1_alg».proof.Proof.Region2
import proofs.«123142_j11003706212774_1_alg».proof.Proof.Region3
import proofs.«123142_j11003706212774_1_alg».proof.Proof.Region4
import proofs.«123142_j11003706212774_1_alg».proof.Proof.Region5
import proofs.«123142_j11003706212774_1_alg».proof.Proof.Region6
import proofs.«123142_j11003706212774_1_alg».proof.Proof.Region7

set_option maxRecDepth 16384

noncomputable section

namespace Cert.Gcn.Flow

open Cert.KernelIdeal Cert.KernelIdeal.Gen
open Idealize.ShloMosaic Idealize.ShloMosaic.TcCoe Idealize.SL.Sem Idealize.ShloMosaic.StableHlo
open Idealize.ShloMosaic.Pipeline (Dat)
open Cert.Gcn.Keep Cert.Gcn.Host

variable (m : (ℓ : Loc nD τ sig) → Buf (Elt Ideal) ℓ) (ρ : Dev nD → PrngReg)

/-- After the first scaling launch: the features scaled by the out-degree norm, times the first weights. -/
theorem w2_v15 (c : Dev nD) : W2 m ρ c (Proc.devRef .tc main_v15) = Cert.Gcn.scaleDot (m ((c : Thread nD τ).loc main_arg0)) (Cert.Gcn.degNorm (m ((c : Thread nD τ).loc main_arg1))) (m ((c : Thread nD τ).loc main_arg3)) :=
  ((W2_arr m ρ c 3).trans (Cert.Gcn.Region0.final (V1 m ρ) c)).trans (by
    show Cert.Gcn.scaleDot (W1 m ρ c (Proc.devRef .tc main_arg0)) (W1 m ρ c (Proc.devRef .tc main_v10)) (W1 m ρ c (Proc.devRef .tc main_arg3)) = _
    rw [at1_arg0 m ρ c, w1_v10 m ρ c, at1_arg3 m ρ c])

/-- After the first bias launch: the first hidden state. -/
theorem w4_v27 (c : Dev nD) : W4 m ρ c (Proc.devRef .tc main_v27) = Cert.Gcn.layer (m ((c : Thread nD τ).loc main_arg0)) (m ((c : Thread nD τ).loc main_arg3)) (m ((c : Thread nD τ).loc main_arg4)) (m ((c : Thread nD τ).loc main_arg1)) (m ((c : Thread nD τ).loc main_arg2)) :=
  ((W4_arr m ρ c 3).trans (Cert.Gcn.Region1.final (V3 m ρ) c)).trans (by
    show Cert.Gcn.relu (Cert.Gcn.scaleBias (W3 m ρ c (Proc.devRef .tc main_v25)) (W3 m ρ c (Proc.devRef .tc main_v14)) (W3 m ρ c (Proc.devRef .tc main_v26))) = _
    rw [w3_v25 m ρ c, w2_v15 m ρ c, at3_v14 m ρ c, w1_v14 m ρ c, w3_v26 m ρ c]
    rfl)

/-- After the second scaling launch. -/
theorem w5_v28 (c : Dev nD) : W5 m ρ c (Proc.devRef .tc main_v28) = Cert.Gcn.scaleDot (Cert.Gcn.layer (m ((c : Thread nD τ).loc main_arg0)) (m ((c : Thread nD τ).loc main_arg3)) (m ((c : Thread nD τ).loc main_arg4)) (m ((c : Thread nD τ).loc main_arg1)) (m ((c : Thread nD τ).loc main_arg2))) (Cert.Gcn.degNorm (m ((c : Thread nD τ).loc main_arg1))) (m ((c : Thread nD τ).loc main_arg5)) :=
  ((W5_arr m ρ c 3).trans (Cert.Gcn.Region2.final (V4 m ρ) c)).trans (by
    show Cert.Gcn.scaleDot (W4 m ρ c (Proc.devRef .tc main_v27)) (W4 m ρ c (Proc.devRef .tc main_v10)) (W4 m ρ c (Proc.devRef .tc main_arg5)) = _
    rw [w4_v27 m ρ c, at4_v10 m ρ c, w1_v10 m ρ c, at4_arg5 m ρ c])

/-- After the second bias launch: the second hidden state. -/
theorem w7_v40 (c : Dev nD) : W7 m ρ c (Proc.devRef .tc main_v40) = Cert.Gcn.layer (Cert.Gcn.layer (m ((c : Thread nD τ).loc main_arg0)) (m ((c : Thread nD τ).loc main_arg3)) (m ((c : Thread nD τ).loc main_arg4)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2)) :=
  ((W7_arr m ρ c 3).trans (Cert.Gcn.Region3.final (V6 m ρ) c)).trans (by
    show Cert.Gcn.relu (Cert.Gcn.scaleBias (W6 m ρ c (Proc.devRef .tc main_v38)) (W6 m ρ c (Proc.devRef .tc main_v14)) (W6 m ρ c (Proc.devRef .tc main_v39))) = _
    rw [w6_v38 m ρ c, w5_v28 m ρ c, at6_v14 m ρ c, w1_v14 m ρ c, w6_v39 m ρ c]
    rfl)

/-- After the third scaling launch. -/
theorem w8_v41 (c : Dev nD) : W8 m ρ c (Proc.devRef .tc main_v41) = Cert.Gcn.scaleDot (Cert.Gcn.layer (Cert.Gcn.layer (m ((c : Thread nD τ).loc main_arg0)) (m ((c : Thread nD τ).loc main_arg3)) (m ((c : Thread nD τ).loc main_arg4)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2))) (Cert.Gcn.degNorm (m ((c : Thread nD τ).loc main_arg1))) (m ((c : Thread nD τ).loc main_arg5)) :=
  ((W8_arr m ρ c 3).trans (Cert.Gcn.Region4.final (V7 m ρ) c)).trans (by
    show Cert.Gcn.scaleDot (W7 m ρ c (Proc.devRef .tc main_v40)) (W7 m ρ c (Proc.devRef .tc main_v10)) (W7 m ρ c (Proc.devRef .tc main_arg5)) = _
    rw [w7_v40 m ρ c, at7_v10 m ρ c, w1_v10 m ρ c, at7_arg5 m ρ c])

/-- After the third bias launch: the third hidden state, the program's second result. -/
theorem w10_v53 (c : Dev nD) : W10 m ρ c (Proc.devRef .tc main_v53) = Cert.Gcn.layer (Cert.Gcn.layer (Cert.Gcn.layer (m ((c : Thread nD τ).loc main_arg0)) (m ((c : Thread nD τ).loc main_arg3)) (m ((c : Thread nD τ).loc main_arg4)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2)) :=
  ((W10_arr m ρ c 3).trans (Cert.Gcn.Region5.final (V9 m ρ) c)).trans (by
    show Cert.Gcn.relu (Cert.Gcn.scaleBias (W9 m ρ c (Proc.devRef .tc main_v51)) (W9 m ρ c (Proc.devRef .tc main_v14)) (W9 m ρ c (Proc.devRef .tc main_v52))) = _
    rw [w9_v51 m ρ c, w8_v41 m ρ c, at9_v14 m ρ c, w1_v14 m ρ c, w9_v52 m ρ c]
    rfl)

/-- After the output layer's scaling launch. -/
theorem w11_v54 (c : Dev nD) : W11 m ρ c (Proc.devRef .tc main_v54) = Cert.Gcn.scaleDot40 (Cert.Gcn.layer (Cert.Gcn.layer (Cert.Gcn.layer (m ((c : Thread nD τ).loc main_arg0)) (m ((c : Thread nD τ).loc main_arg3)) (m ((c : Thread nD τ).loc main_arg4)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2))) (Cert.Gcn.degNorm (m ((c : Thread nD τ).loc main_arg1))) (m ((c : Thread nD τ).loc main_arg7)) :=
  ((W11_arr m ρ c 3).trans (Cert.Gcn.Region6.final (V10 m ρ) c)).trans (by
    show Cert.Gcn.scaleDot40 (W10 m ρ c (Proc.devRef .tc main_v53)) (W10 m ρ c (Proc.devRef .tc main_v10)) (W10 m ρ c (Proc.devRef .tc main_arg7)) = _
    rw [w10_v53 m ρ c, at10_v10 m ρ c, w1_v10 m ρ c, at10_arg7 m ρ c])

/-- After the output layer's bias launch: the program's first result. -/
theorem w13_v66 (c : Dev nD) : W13 m ρ c (Proc.devRef .tc main_v66) = Cert.Gcn.output (Cert.Gcn.layer (Cert.Gcn.layer (Cert.Gcn.layer (m ((c : Thread nD τ).loc main_arg0)) (m ((c : Thread nD τ).loc main_arg3)) (m ((c : Thread nD τ).loc main_arg4)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2))) (m ((c : Thread nD τ).loc main_arg1)) (m ((c : Thread nD τ).loc main_arg2)) (m ((c : Thread nD τ).loc main_arg7)) (m ((c : Thread nD τ).loc main_arg8)) :=
  ((W13_arr m ρ c 3).trans (Cert.Gcn.Region7.final (V12 m ρ) c)).trans (by
    show (Cert.Gcn.scaleBias40 (W12 m ρ c (Proc.devRef .tc main_v64)) (W12 m ρ c (Proc.devRef .tc main_v14)) (W12 m ρ c (Proc.devRef .tc main_v65))) = _
    rw [w12_v64 m ρ c, w11_v54 m ρ c, at12_v14 m ρ c, w1_v14 m ρ c, w12_v65 m ρ c]
    rfl)

/-- THE SECOND RESULT at the end of the program: the hidden state after three layers, of the launch arguments. -/
theorem result1 (c : Dev nD) : W13 m ρ c (Proc.devRef .tc main_v53) = Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (at13_v53 m ρ c).trans ((w10_v53 m ρ c).trans rfl)

/-- THE FIRST RESULT at the end of the program: the output layer over that hidden state. -/
theorem result0 (c : Dev nD) : W13 m ρ c (Proc.devRef .tc main_v66) = Cert.Gcn.output (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) :=
  (w13_v66 m ρ c).trans rfl

end Cert.Gcn.Flow

end
-- ==== Proof.RefSide.lean ====
/-
  The reference's two results are the same functions of its arguments.

  The reference's run ends with each result at the composed term of its host operations over the launch arguments.
  Those operations, read in order, are the layers of the network as stated once for both programs: the second result is
  the hidden state after three layers, the first the output layer over it.
-/
import proofs.«123142_j11003706212774_1_alg».proof.Proof.Gen.ReferenceIdeal.Run
import proofs.«123142_j11003706212774_1_alg».proof.Proof.Spec

set_option maxRecDepth 16384

noncomputable section

namespace Cert.Gcn.Ref

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ)

/-- The reference's second result is the hidden state after three layers. -/
theorem res1_eq (c : Dev nD) : res_main_v71 (F := Ideal) m c
    = Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold res_main_v71
  rfl

/-- The reference's first result is the output layer over that hidden state. -/
theorem res0_eq (c : Dev nD) : res_main_v89 (F := Ideal) m c
    = Cert.Gcn.output (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (m ((c : Thread nD τ).loc main_arg1)) (m ((c : Thread nD τ).loc main_arg2)) (m ((c : Thread nD τ).loc main_arg7)) (m ((c : Thread nD τ).loc main_arg8)) := by
  unfold res_main_v89
  rfl

end Cert.Gcn.Ref

end
-- ==== Proof.lean ====
/-
  A three-hidden-layer graph convolution and its output layer, tiled over the nodes, against the same network written
  with whole-array operations.

  Each layer scales every node's row by the node's out-degree norm and multiplies by the layer's weights, sums over the
  edges into each destination the source's row, scales by the in-degree norm and adds the bias; the hidden layers keep
  what is positive. The kernel program does the scaling-and-product and the bias step in launches over ten blocks of
  10000 rows, the product with both operands narrowed and into a zero accumulator, and leaves the edge sums to the
  host; the reference does everything on the host. On the extended reals narrowing changes nothing and both products
  are the same sum over the contracted axis, so block by block each launch leaves exactly the rows of the reference's
  whole-array term, the ten blocks tile the array, and the edge sums are one operation applied to equal arrays. No law
  beyond reading both products as that sum is needed, and the inputs' finiteness is never used.

  The three frames are the generated ones (the reference's its generated run with the results dropped); the
  idealization rewrote nothing; the two results are compared through one statement of the network (`Cert.Gcn.hidden`,
  `Cert.Gcn.output`).
-/
import proofs.«123142_j11003706212774_1_alg».proof.Defs
import proofs.«123142_j11003706212774_1_alg».proof.Proof.Gen.Kernel
import proofs.«123142_j11003706212774_1_alg».proof.Proof.Gen.Kernel.Skeleton
import proofs.«123142_j11003706212774_1_alg».proof.Proof.Gen.Kernel.Launch
import proofs.«123142_j11003706212774_1_alg».proof.Proof.Gen.Kernel.Points
import proofs.«123142_j11003706212774_1_alg».proof.Proof.Gen.Kernel.Frame
import proofs.«123142_j11003706212774_1_alg».proof.Proof.Gen.KernelIdeal
import proofs.«123142_j11003706212774_1_alg».proof.Proof.Gen.KernelIdeal.Skeleton
import proofs.«123142_j11003706212774_1_alg».proof.Proof.Gen.KernelIdeal.Launch
import proofs.«123142_j11003706212774_1_alg».proof.Proof.Gen.KernelIdeal.Points
import proofs.«123142_j11003706212774_1_alg».proof.Proof.Gen.KernelIdeal.Frame
import proofs.«123142_j11003706212774_1_alg».proof.Proof.Gen.ReferenceIdeal
import proofs.«123142_j11003706212774_1_alg».proof.Proof.Gen.Pre_finite_inputs
import proofs.«123142_j11003706212774_1_alg».proof.Proof.Gen.ReferenceIdeal.Run
import proofs.«123142_j11003706212774_1_alg».proof.Proof.KernelRun
import proofs.«123142_j11003706212774_1_alg».proof.Proof.Flow
import proofs.«123142_j11003706212774_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the output layer over the hidden state, and with the hidden state, of arguments that agree. -/
theorem algebraic : Cert.algebraic_KernelIdeal_ReferenceIdeal := by
  intro m ρ m' ρ' _ hagree
  refine ⟨fun c => Cert.Gcn.output (Cert.Gcn.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Gcn.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c).1.trans (Cert.Gcn.Flow.result0 m ρ c), (h c).2.1.trans (Cert.Gcn.Flow.result1 m ρ c), (h c).2.2⟩)
      (Cert.Gcn.KernelRun.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8⟩ := hagree c
      rw [Cert.Gcn.Ref.res0_eq, e0, e1, e2, e3, e4, e5, e6, e7, e8]
    · obtain ⟨e0, e1, e2, e3, e4, e5, e6, -, -⟩ := hagree c
      rw [Cert.Gcn.Ref.res1_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
